-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x8192x64 : Shape := ⟨4, ![4, 12, 8192, 64]⟩
abbrev S4x8192 : Shape := ⟨2, ![4, 8192]⟩
abbrev S_ : Shape := ⟨0, ![]⟩

class Facts : Prop where
  bcast_S_S4x12x8192x64 : S_.BroadcastsInDim S4x12x8192x64 (![] : Fin 0 → Fin S4x12x8192x64.rank)
  reducesTo_S4x12x8192x64_S_d0_1_2_3 : S4x12x8192x64.ReducesTo [0, 1, 2, 3] S_
  h_S_ : 0 < S_.numel
  bcast_S_S4x8192 : S_.BroadcastsInDim S4x8192 (![] : Fin 0 → Fin S4x8192.rank)
  reducesTo_S4x8192_S_d0_1 : S4x8192.ReducesTo [0, 1] S_

variable [Facts]

def fn_part1 {F : FTy → Type} [FloatOps F] (main_v13 : IVec S_ 1) (main_v16 : IVec S4x8192 1) : IVec S_ 1 :=
  let main_c_5 : IVec S_ 1 := constantI S_ 1 1#1
  let main_v17 : IVec S_ 1 := (fun x v => Host.reduce IntOp.andi x v reducesTo_S4x8192_S_d0_1 h_S_) main_v16 main_c_5
  let main_v18 : IVec S_ 1 := andi main_v13 main_v17
  main_v18

def fn {F : FTy → Type} [FloatOps F] (main_arg0 : FVec F S4x12x8192x64 .f32) (main_arg1 : FVec F S4x12x8192x64 .f32) (main_arg2 : FVec F S4x12x8192x64 .f32) (main_arg3 : FVec F S4x8192 .f32) : IVec S_ 1 :=
  let main_v0 : FVec F S4x12x8192x64 .f32 := Host.absf main_arg0
  let main_cst : FVec F S_ .f32 := constant S_ .f32 0x7F800000#32
  let main_v1 : FVec F S4x12x8192x64 .f32 := broadcastInDim S4x12x8192x64 ![] bcast_S_S4x12x8192x64 main_cst
  let main_v2 : IVec S4x12x8192x64 1 := cmpf .olt main_v0 main_v1
  let main_c : IVec S_ 1 := constantI S_ 1 1#1
  let main_v3 : IVec S_ 1 := (fun x v => Host.reduce IntOp.andi x v reducesTo_S4x12x8192x64_S_d0_1_2_3 h_S_) main_v2 main_c
  let main_v4 : FVec F S4x12x8192x64 .f32 := Host.absf main_arg1
  let main_cst_0 : FVec F S_ .f32 := constant S_ .f32 0x7F800000#32
  let main_v5 : FVec F S4x12x8192x64 .f32 := broadcastInDim S4x12x8192x64 ![] bcast_S_S4x12x8192x64 main_cst_0
  let main_v6 : IVec S4x12x8192x64 1 := cmpf .olt main_v4 main_v5
  let main_c_1 : IVec S_ 1 := constantI S_ 1 1#1
  let main_v7 : IVec S_ 1 := (fun x v => Host.reduce IntOp.andi x v reducesTo_S4x12x8192x64_S_d0_1_2_3 h_S_) main_v6 main_c_1
  let main_v8 : IVec S_ 1 := andi main_v3 main_v7
  let main_v9 : FVec F S4x12x8192x64 .f32 := Host.absf main_arg2
  let main_cst_2 : FVec F S_ .f32 := constant S_ .f32 0x7F800000#32
  let main_v10 : FVec F S4x12x8192x64 .f32 := broadcastInDim S4x12x8192x64 ![] bcast_S_S4x12x8192x64 main_cst_2
  let main_v11 : IVec S4x12x8192x64 1 := cmpf .olt main_v9 main_v10
  let main_c_3 : IVec S_ 1 := constantI S_ 1 1#1
  let main_v12 : IVec S_ 1 := (fun x v => Host.reduce IntOp.andi x v reducesTo_S4x12x8192x64_S_d0_1_2_3 h_S_) main_v11 main_c_3
  let main_v13 : IVec S_ 1 := andi main_v8 main_v12
  let main_v14 : FVec F S4x8192 .f32 := Host.absf main_arg3
  let main_cst_4 : FVec F S_ .f32 := constant S_ .f32 0x7F800000#32
  let main_v15 : FVec F S4x8192 .f32 := broadcastInDim S4x8192 ![] bcast_S_S4x8192 main_cst_4
  let main_v16 : IVec S4x8192 1 := cmpf .olt main_v14 main_v15
  fn_part1 (F := F) main_v13 main_v16
-- ==== Kernel.lean ====
abbrev S4x12x8192x64 : Shape := ⟨4, ![4, 12, 8192, 64]⟩
abbrev S4x8192 : Shape := ⟨2, ![4, 8192]⟩
abbrev S4x1x8192 : Shape := ⟨3, ![4, 1, 8192]⟩
abbrev S4x12x64x64 : Shape := ⟨4, ![4, 12, 64, 64]⟩
abbrev S1x1x4096 : Shape := ⟨3, ![1, 1, 4096]⟩
abbrev S1x1x4096x64 : Shape := ⟨4, ![1, 1, 4096, 64]⟩
abbrev S1x1x64x64 : Shape := ⟨4, ![1, 1, 64, 64]⟩
abbrev S64x64 : Shape := ⟨2, ![64, 64]⟩
abbrev S4096x64 : Shape := ⟨2, ![4096, 64]⟩
abbrev S1x4096 : Shape := ⟨2, ![1, 4096]⟩
abbrev S4096x1 : Shape := ⟨2, ![4096, 1]⟩
abbrev S4096 : Shape := ⟨1, ![4096]⟩
abbrev S4x12x4096x128 : Shape := ⟨4, ![4, 12, 4096, 128]⟩
abbrev S1x1x2048x64 : Shape := ⟨4, ![1, 1, 2048, 64]⟩
abbrev S1x1x1024x128 : Shape := ⟨4, ![1, 1, 1024, 128]⟩
abbrev S2048x64 : Shape := ⟨2, ![2048, 64]⟩
abbrev S2048 : Shape := ⟨1, ![2048]⟩
abbrev S2048x1 : Shape := ⟨2, ![2048, 1]⟩
abbrev S1024x128 : Shape := ⟨2, ![1024, 128]⟩

abbrev nBuf : Space → Nat
  | .hbm => 8
  | .vmem => 15
  | .smem => 0
  | _ => 0

abbrev bufTy : (tb : Table) → Fin (tcTables nBuf tb) → BufTy
  | .hbm, ⟨0, _⟩ => ⟨S4x12x8192x64, .f32⟩
  | .hbm, ⟨1, _⟩ => ⟨S4x12x8192x64, .f32⟩
  | .hbm, ⟨2, _⟩ => ⟨S4x12x8192x64, .f32⟩
  | .hbm, ⟨3, _⟩ => ⟨S4x8192, .f32⟩
  | .hbm, ⟨4, _⟩ => ⟨S4x1x8192, .f32⟩
  | .hbm, ⟨5, _⟩ => ⟨S4x12x64x64, .f32⟩
  | .hbm, ⟨6, _⟩ => ⟨S4x12x4096x128, .f32⟩
  | .hbm, ⟨7, _⟩ => ⟨S4x12x8192x64, .f32⟩
  | .local _ .vmem, ⟨0, _⟩ => ⟨S1x1x4096, .f32⟩
  | .local _ .vmem, ⟨1, _⟩ => ⟨S1x1x4096, .f32⟩
  | .local _ .vmem, ⟨2, _⟩ => ⟨S1x1x4096x64, .f32⟩
  | .local _ .vmem, ⟨3, _⟩ => ⟨S1x1x4096x64, .f32⟩
  | .local _ .vmem, ⟨4, _⟩ => ⟨S1x1x4096x64, .f32⟩
  | .local _ .vmem, ⟨5, _⟩ => ⟨S1x1x4096x64, .f32⟩
  | .local _ .vmem, ⟨6, _⟩ => ⟨S1x1x64x64, .f32⟩
  | .local _ .vmem, ⟨7, _⟩ => ⟨S1x1x64x64, .f32⟩
  | .local _ .vmem, ⟨8, _⟩ => ⟨S64x64, .f32⟩
  | .local _ .vmem, ⟨9, _⟩ => ⟨S1x1x2048x64, .f32⟩
  | .local _ .vmem, ⟨10, _⟩ => ⟨S1x1x2048x64, .f32⟩
  | .local _ .vmem, ⟨11, _⟩ => ⟨S1x1x64x64, .f32⟩
  | .local _ .vmem, ⟨12, _⟩ => ⟨S1x1x64x64, .f32⟩
  | .local _ .vmem, ⟨13, _⟩ => ⟨S1x1x1024x128, .f32⟩
  | .local _ .vmem, ⟨14, _⟩ => ⟨S1x1x1024x128, .f32⟩
  | _, _ => ⟨S4x12x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![4, 12, 2], ![false, false, false]⟩

def k0_cond2 (i : grid0.Coords) : BitVec 1 :=
  let arg2 : BitVec 32 := BitVec.ofNat 32 (i 2).val
  let c1_i32 : BitVec 32 := 1#32
  let v32 : BitVec 1 := Scalar.cmpi .eq arg2 c1_i32
  let v33 : BitVec 32 := Scalar.extui v32
  let c0_i32_18 : BitVec 32 := 0#32
  let v34 : BitVec 1 := Scalar.cmpi .ne v33 c0_i32_18
  v34

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 12, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  bcast_S4x8192_S4x1x8192_0_2 : S4x8192.BroadcastsInDim S4x1x8192 (![0, 2] : Fin 2 → Fin S4x1x8192.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  transposes_S1x4096_p1_0_S4096x1 : S1x4096.Transposes [1, 0] S4096x1
  reduces_S4096x64_S4096 : S4096x64.Reduces [1] S4096
  shapeCasts_S4096_S4096x1 : S4096.ShapeCasts S4096x1
  broadcasts_S4096x1_S4096x64 : S4096x1.Broadcasts S4096x64
  bitsLt_bf16_f32 : FTy.bits .bf16 < FTy.bits .f32
  inb_S1x1x64x64_S1x1x64x64_0_0_0_0 : ∀ a, (![0, 0, 0, 0] : Fin 4 → Nat) a + S1x1x64x64.size a ≤ S1x1x64x64.size a
  h_S1x1x64x64 : 0 < S1x1x64x64.numel
  shapeCasts_S1x1x64x64_S64x64 : S1x1x64x64.ShapeCasts S64x64
  shapeCasts_S64x64_S1x1x64x64 : S64x64.ShapeCasts S1x1x64x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S2048x64_S2048 : S2048x64.Reduces [1] S2048
  shapeCasts_S2048_S2048x1 : S2048.ShapeCasts S2048x1
  broadcasts_S2048x1_S2048x64 : S2048x1.Broadcasts S2048x64
  shapeCasts_S2048x64_S1024x128 : S2048x64.ShapeCasts S1024x128
  inb_S1x1x1024x128_S1x1x1024x128_0_0_0_0 : ∀ a, (![0, 0, 0, 0] : Fin 4 → Nat) a + S1x1x1024x128.size a ≤ S1x1x1024x128.size a
  h_S1x1x1024x128 : 0 < S1x1x1024x128.numel
  shapeCasts_S1x1x1024x128_S1024x128 : S1x1x1024x128.ShapeCasts S1024x128
  shapeCasts_S1024x128_S1x1x1024x128 : S1024x128.ShapeCasts S1x1x1024x128
  shapeCasts_S4x12x4096x128_S4x12x8192x64 : S4x12x4096x128.ShapeCasts S4x12x8192x64
  dot_S4096x64_S4096x64_S64x64_0_0_1_1_n_n_wf : DotDims.WF S4096x64 S4096x64 S64x64 [0] [0] [1] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096.size a ≤ S4x1x8192.size a
  hwx0_0 : ∀ i : grid0.Coords, EltTy.bits .f32 = 32 ∨ (Rect.block (s := S4x1x8192) S1x1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x64.size a ≤ S4x12x8192x64.size a
  hwx0_1 : ∀ i : grid0.Coords, EltTy.bits .f32 = 32 ∨ (Rect.block (s := S4x12x8192x64) S1x1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x64.size a ≤ S4x12x8192x64.size a
  hwx0_2 : ∀ i : grid0.Coords, EltTy.bits .f32 = 32 ∨ (Rect.block (s := S4x12x8192x64) S1x1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64x64.size a ≤ S4x12x64x64.size a
  hwx0_3 : ∀ i : grid0.Coords, EltTy.bits .f32 = 32 ∨ (Rect.block (s := S4x12x64x64) S1x1x64x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x2048x64.size a ≤ S4x12x8192x64.size a
  hwx1_0 : ∀ i : grid1.Coords, EltTy.bits .f32 = 32 ∨ (Rect.block (s := S4x12x8192x64) S1x1x2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64x64.size a ≤ S4x12x64x64.size a
  hwx1_1 : ∀ i : grid1.Coords, EltTy.bits .f32 = 32 ∨ (Rect.block (s := S4x12x64x64) S1x1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x128.size a ≤ S4x12x4096x128.size a
  hwx1_2 : ∀ i : grid1.Coords, EltTy.bits .f32 = 32 ∨ (Rect.block (s := S4x12x4096x128) S1x1x1024x128.size (cc1_transform_2 i) (hinb1_2 i)).WholeWords (EltTy.packing .f32)

variable [Facts₀]

def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v0) S1x1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1x1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x12x8192x64 : Shape := ⟨4, ![4, 12, 8192, 64]⟩
abbrev S4x8192 : Shape := ⟨2, ![4, 8192]⟩
abbrev S4x1x8192x1 : Shape := ⟨4, ![4, 1, 8192, 1]⟩
abbrev S_ : Shape := ⟨0, ![]⟩
abbrev S4x12x8192 : Shape := ⟨3, ![4, 12, 8192]⟩
abbrev S4x12x8192x1 : Shape := ⟨4, ![4, 12, 8192, 1]⟩
abbrev S4x12x64x64 : Shape := ⟨4, ![4, 12, 64, 64]⟩

abbrev nBuf : Space → Nat
  | .hbm => 37
  | .vmem => 0
  | .smem => 0
  | _ => 0

abbrev bufTy : (tb : Table) → Fin (tcTables nBuf tb) → BufTy
  | .hbm, ⟨0, _⟩ => ⟨S4x12x8192x64, .f32⟩
  | .hbm, ⟨1, _⟩ => ⟨S4x12x8192x64, .f32⟩
  | .hbm, ⟨2, _⟩ => ⟨S4x12x8192x64, .f32⟩
  | .hbm, ⟨3, _⟩ => ⟨S4x8192, .f32⟩
  | .hbm, ⟨4, _⟩ => ⟨S4x1x8192x1, .f32⟩
  | .hbm, ⟨5, _⟩ => ⟨S4x12x8192x64, .f32⟩
  | .hbm, ⟨6, _⟩ => ⟨S_, .f32⟩
  | .hbm, ⟨7, _⟩ => ⟨S4x12x8192, .f32⟩
  | .hbm, ⟨8, _⟩ => ⟨S4x12x8192x1, .f32⟩
  | .hbm, ⟨9, _⟩ => ⟨S4x12x8192x1, .f32⟩
  | .hbm, ⟨10, _⟩ => ⟨S_, .f32⟩
  | .hbm, ⟨11, _⟩ => ⟨S4x12x8192x1, .f32⟩
  | .hbm, ⟨12, _⟩ => ⟨S4x12x8192x1, .f32⟩
  | .hbm, ⟨13, _⟩ => ⟨S4x12x8192x64, .f32⟩
  | .hbm, ⟨14, _⟩ => ⟨S4x12x8192x64, .f32⟩
  | .hbm, ⟨15, _⟩ => ⟨S_, .f32⟩
  | .hbm, ⟨16, _⟩ => ⟨S4x12x8192x64, .f32⟩
  | .hbm, ⟨17, _⟩ => ⟨S4x12x8192x64, .f32⟩
  | .hbm, ⟨18, _⟩ => ⟨S4x12x8192x64, .f32⟩
  | .hbm, ⟨19, _⟩ => ⟨S_, .f32⟩
  | .hbm, ⟨20, _⟩ => ⟨S4x12x8192, .f32⟩
  | .hbm, ⟨21, _⟩ => ⟨S4x12x8192x1, .f32⟩
  | .hbm, ⟨22, _⟩ => ⟨S4x12x8192x1, .f32⟩
  | .hbm, ⟨23, _⟩ => ⟨S_, .f32⟩
  | .hbm, ⟨24, _⟩ => ⟨S4x12x8192x1, .f32⟩
  | .hbm, ⟨25, _⟩ => ⟨S4x12x8192x1, .f32⟩
  | .hbm, ⟨26, _⟩ => ⟨S4x12x8192x64, .f32⟩
  | .hbm, ⟨27, _⟩ => ⟨S4x12x8192x64, .f32⟩
  | .hbm, ⟨28, _⟩ => ⟨S4x12x8192x64, .f32⟩
  | .hbm, ⟨29, _⟩ => ⟨S4x12x8192x64, .f32⟩
  | .hbm, ⟨30, _⟩ => ⟨S_, .f32⟩
  | .hbm, ⟨31, _⟩ => ⟨S4x12x8192x64, .f32⟩
  | .hbm, ⟨32, _⟩ => ⟨S4x12x8192x64, .f32⟩
  | .hbm, ⟨33, _⟩ => ⟨S4x12x8192x64, .f32⟩
  | .hbm, ⟨34, _⟩ => ⟨S4x12x8192x64, .f32⟩
  | .hbm, ⟨35, _⟩ => ⟨S4x12x64x64, .f32⟩
  | .hbm, ⟨36, _⟩ => ⟨S4x12x8192x64, .f32⟩
  | _, _ => ⟨S4x12x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]

class Facts₀ : Prop where
  bcast_S4x8192_S4x1x8192x1_0_2 : S4x8192.BroadcastsInDim S4x1x8192x1 (![0, 2] : Fin 2 → Fin S4x1x8192x1.rank)
  reducesTo_S4x12x8192x64_S4x12x8192_d3 : S4x12x8192x64.ReducesTo [3] S4x12x8192
  h_S_ : 0 < S_.numel
  bcast_S4x12x8192_S4x12x8192x1_0_1_2 : S4x12x8192.BroadcastsInDim S4x12x8192x1 (![0, 1, 2] : Fin 3 → Fin S4x12x8192x1.rank)
  bcast_S_S4x12x8192x1 : S_.BroadcastsInDim S4x12x8192x1 (![] : Fin 0 → Fin S4x12x8192x1.rank)
  bcast_S4x12x8192x1_S4x12x8192x64_0_1_2_3 : S4x12x8192x1.BroadcastsInDim S4x12x8192x64 (![0, 1, 2, 3] : Fin 4 → Fin S4x12x8192x64.rank)
  bcast_S_S4x12x8192x64 : S_.BroadcastsInDim S4x12x8192x64 (![] : Fin 0 → Fin S4x12x8192x64.rank)
  bcast_S4x1x8192x1_S4x12x8192x64_0_1_2_3 : S4x1x8192x1.BroadcastsInDim S4x12x8192x64 (![0, 1, 2, 3] : Fin 4 → Fin S4x12x8192x64.rank)
  dot_S4x12x8192x64_S4x12x8192x64_S4x12x64x64_2_2_3_3_01_01_wf : DotDims.WF S4x12x8192x64 S4x12x8192x64 S4x12x64x64 [2] [2] [3] [3] [0, 1] [0, 1]
  dot_S4x12x8192x64_S4x12x64x64_S4x12x8192x64_3_2_2_3_01_01_wf : DotDims.WF S4x12x8192x64 S4x12x64x64 S4x12x8192x64 [3] [2] [2] [3] [0, 1] [0, 1]

variable [Facts₀]

def dot_S4x12x8192x64_S4x12x8192x64_S4x12x64x64_2_2_3_3_01_01 : DotDims S4x12x8192x64 S4x12x8192x64 S4x12x64x64 where
  lhsContracting := [2]
  rhsContracting := [2]
  lhsNonContracting := [3]
  rhsNonContracting := [3]
  lhsBatch := [0, 1]
  rhsBatch := [0, 1]
  wf := dot_S4x12x8192x64_S4x12x8192x64_S4x12x64x64_2_2_3_3_01_01_wf
def dot_S4x12x8192x64_S4x12x64x64_S4x12x8192x64_3_2_2_3_01_01 : DotDims S4x12x8192x64 S4x12x64x64 S4x12x8192x64 where
  lhsContracting := [3]
  rhsContracting := [2]
  lhsNonContracting := [2]
  rhsNonContracting := [3]
  lhsBatch := [0, 1]
  rhsBatch := [0, 1]
  wf := dot_S4x12x8192x64_S4x12x64x64_S4x12x8192x64_3_2_2_3_01_01_wf

class Facts : Prop extends Facts₀ where

variable [Facts]
-- ==== Proof.BR0Defs.lean ====
/-
  The first kernel (K^T V accumulated over two tiles of 4096 positions) on its grid of 4 x 12 x 2 points:
  which of its two branches a point takes, and where its output window is idle.
  At a point with last coordinate 0 the accumulator is reset before the tile's product is added and nothing is
  stored into the output block; at a point with last coordinate 1 the product is added to what the point before
  left and the accumulator is copied into the output block, which the pipeline then writes back.
-/
import proofs.«145427_j10582799417399_2_alg».proof.Proof.Gen.Kernel.Launch
import proofs.«145427_j10582799417399_2_alg».proof.Proof.Gen.Kernel.Skeleton
import proofs.«145427_j10582799417399_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first tile": the reset branch's condition, from the grid coordinates. -/
abbrev cond0_0 (i : grid0.Coords) : Prop := (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- "This is the last tile": the write-out branch's condition. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At an even point the output window is idle and is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At an odd point it is live. -/
theorem liveAt0_3_B : ∀ t : Fin cfg0.N, ¬cond0_0 (grid0.coords t) → cond0_1 (grid0.coords t) → cfg0.idle 3 (grid0.coords t) = false := by decide +kernel

/-- Each window's current staging memref at point `t`, as the pipeline passes it to the body. -/
abbrev ms0_0 (t : Fin cfg0.N) : Memref sig .tc .vmem S1x1x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4096x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64x64 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S64x64 .f32 := Memref.whole cc0_scratch0
/-- The accumulator and the output block as views, through which their contents are stated. -/
abbrev VS0_0 : View sig .tc .vmem S64x64 .f32 := scM0_0.view
abbrev VO0_3 : View sig .tc .vmem S1x1x64x64 .f32 := (Memref.whole cc0_stg3_0 : Memref sig .tc .vmem S1x1x64x64 .f32).view

/-- What the region may use and need not describe, with the accumulator split out as a memref owned at some
    contents beside the other scoped buffers. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0_0, owns_whole]; try rfl

/-- The scoped buffers of the core other than this region's staging buffers and its accumulator (the second
    region's staging buffers), each whole at some contents: the region never touches them. -/
def scRest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The same with those buffers named as one term. -/
theorem PhiA0_eq' (c : Dev nD) :
    (Pipeline.ΦA spec0 c : sProp 𝕄)
      = iprop(iprop((∃ d, owns (c : Thread nD τ) scM0_0 fullShare d) ∗ scRest0 (F := F) c) ∗ (∃ r, prngReg c r)) := by
  rw [PhiA0_eq]; rfl

end Cert.Kernel.Fr

end
-- ==== Proof.BR0RunA.lean ====
/-
  The first kernel's body at an even point (the first tile of a (b, h) pair): the accumulator is overwritten with
  zeros, the tile's product is added, and the output block is handed back as it was found.
  The run records, as a list of stores (newest first), what the accumulator ends with.
-/
import proofs.«145427_j10582799417399_2_alg».proof.Proof.BR0Defs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the accumulator at an even point, with the proof that from the three input
    blocks at their contents, the output block at any contents and the accumulator at any contents the body runs
    to the end, the inputs and the output block unchanged, the accumulator with those stores applied. -/
noncomputable def kernelRun0_A (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : cond0_0 i) (hc1 : ¬cond0_1 i)
    (x0 : Vec F S1x1x4096 .f32) (x1 : Vec F S1x1x4096x64 .f32) (x2 : Vec F S1x1x4096x64 .f32) :
    { LS0 : List (View.Piece (Elt F) S64x64 .f32) //
      ∀ (xi3 : Vec F S1x1x64x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__ktv_kernel i arg3 harg3 arg4 harg4 arg5 harg5 arg6 harg6 arg7 harg7) K } := by
  refine ⟨?_, fun xi3 E K => ?run⟩
  case run =>
    simp only [cc0__ktv_kernel_eq_skeleton]; unfold cc0__ktv_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Fr

end
-- ==== Proof.BR0RunB.lean ====
/-
  The first kernel's body at an odd point (the last tile of a (b, h) pair): the tile's product is added to what
  the point before left in the accumulator, and the accumulator is copied into the output block.
  The run records, as lists of stores (newest first), what the output block and the accumulator end with.
-/
import proofs.«145427_j10582799417399_2_alg».proof.Proof.BR0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output block and in the accumulator at an odd point, with the proof that
    from the three input blocks at their contents, the output block at any contents and the accumulator at
    `xs0` the body runs to the end, the inputs unchanged, the output block and the accumulator with those stores applied. -/
noncomputable def kernelRun0_B (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : ¬cond0_0 i) (hc1 : cond0_1 i)
    (x0 : Vec F S1x1x4096 .f32) (x1 : Vec F S1x1x4096x64 .f32) (x2 : Vec F S1x1x4096x64 .f32) (xs0 : Vec F S64x64 .f32) :
    Σ' (L3 : List (View.Piece (Elt F) S1x1x64x64 .f32)), { LS0 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__ktv_kernel i arg3 harg3 arg4 harg4 arg5 harg5 arg6 harg6 arg7 harg7) K } := by
  refine ⟨?_, ?_, fun E K => ?run⟩
  case run =>
    simp only [cc0__ktv_kernel_eq_skeleton]; unfold cc0__ktv_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.Kernel.Fr

end
-- ==== Proof.BR0Dat.lean ====
/-
  The first kernel's region, point by point, at the contents `V` the region is entered with.
  Each input window's buffer holds its block of the array at every point. The accumulator after an even point is
  what the reset-and-add body leaves from that point's blocks; after an odd point it is what the add body leaves
  from that point's blocks and the accumulator of the point before; the output block after an odd point is what
  that body copies out of the accumulator. Between points the region's invariant keeps the accumulator at exactly
  these contents, so the odd point finds what the even point left.
-/
import proofs.«145427_j10582799417399_2_alg».proof.Proof.BR0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each branch leaves -/

/-- At an even point the stores into the accumulator cover it. -/
theorem scover0_A_0 (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : cond0_0 i) (hc1 : ¬cond0_1 i)
    (x0 : Vec F S1x1x4096 .f32) (x1 : Vec F S1x1x4096x64 .f32) (x2 : Vec F S1x1x4096x64 .f32) (y : S64x64.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S64x64.size (by sl_kernel_rfl) y

/-- What an even point leaves in the accumulator. -/
def sout0_A_0 (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : cond0_0 i) (hc1 : ¬cond0_1 i)
    (x0 : Vec F S1x1x4096 .f32) (x1 : Vec F S1x1x4096x64 .f32) (x2 : Vec F S1x1x4096x64 .f32) : Vec F S64x64 .f32 :=
  VS0_0.read (Elt F) (VS0_0.writes (Elt F) VS0_0.junk (kernelRun0_A c i arg3 harg3 arg4 harg4 arg5 harg5 arg6 harg6 arg7 harg7 hc0 hc1 x0 x1 x2).1)

/-- At an odd point the store into the output block covers it. -/
theorem cover0_B_3 (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : ¬cond0_0 i) (hc1 : cond0_1 i)
    (x0 : Vec F S1x1x4096 .f32) (x1 : Vec F S1x1x4096x64 .f32) (x2 : Vec F S1x1x4096x64 .f32) (xs0 : Vec F S64x64 .f32) (y : S1x1x64x64.Idx) :
    ∃ pc ∈ (kernelRun0_B c i arg3 harg3 arg4 harg4 arg5 harg5 arg6 harg6 arg7 harg7 hc0 hc1 x0 x1 x2 xs0).1, y ∈ pc.1.set :=
  View.cover_of_tiledL (kernelRun0_B c i arg3 harg3 arg4 harg4 arg5 harg5 arg6 harg6 arg7 harg7 hc0 hc1 x0 x1 x2 xs0).1 S1x1x64x64.size (by sl_kernel_rfl) y

/-- What an odd point leaves in the output block. -/
def out0_B_3 (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : ¬cond0_0 i) (hc1 : cond0_1 i)
    (x0 : Vec F S1x1x4096 .f32) (x1 : Vec F S1x1x4096x64 .f32) (x2 : Vec F S1x1x4096x64 .f32) (xs0 : Vec F S64x64 .f32) : Vec F S1x1x64x64 .f32 :=
  VO0_3.read (Elt F) (VO0_3.writes (Elt F) VO0_3.junk (kernelRun0_B c i arg3 harg3 arg4 harg4 arg5 harg5 arg6 harg6 arg7 harg7 hc0 hc1 x0 x1 x2 xs0).1)

/-- At an odd point the store into the accumulator covers it. -/
theorem scover0_B_0 (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : ¬cond0_0 i) (hc1 : cond0_1 i)
    (x0 : Vec F S1x1x4096 .f32) (x1 : Vec F S1x1x4096x64 .f32) (x2 : Vec F S1x1x4096x64 .f32) (xs0 : Vec F S64x64 .f32) (y : S64x64.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S64x64.size (by sl_kernel_rfl) y

/-- What an odd point leaves in the accumulator. -/
def sout0_B_0 (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : ¬cond0_0 i) (hc1 : cond0_1 i)
    (x0 : Vec F S1x1x4096 .f32) (x1 : Vec F S1x1x4096x64 .f32) (x2 : Vec F S1x1x4096x64 .f32) (xs0 : Vec F S64x64 .f32) : Vec F S64x64 .f32 :=
  VS0_0.read (Elt F) (VS0_0.writes (Elt F) VS0_0.junk (kernelRun0_B c i arg3 harg3 arg4 harg4 arg5 harg5 arg6 harg6 arg7 harg7 hc0 hc1 x0 x1 x2 xs0).2.1)

/-- An even point is no odd point. -/
theorem not_cond1_of_even (t : Fin cfg0.N) (h0 : t.val % 2 = 0) : ¬cond0_1 (grid0.coords t) :=
  fun h => by have := (hcond0_1 t).mp h; omega
theorem not_cond0_of_odd (t : Fin cfg0.N) (h1 : t.val % 2 = 1) : ¬cond0_0 (grid0.coords t) :=
  fun h => by have := (hcond0_0 t).mp h; omega

/-- The accumulator after the even point `t`, from that point's blocks. -/
def accEven (c : Dev nD) (t : Fin cfg0.N) (h0 : t.val % 2 = 0) : Vec F S64x64 .f32 :=
  sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (not_cond1_of_even t h0) (iblk0 V c 0 t) (iblk0 V c 1 t) (iblk0 V c 2 t)
/-- The accumulator after the odd point `t`, from that point's blocks and the accumulator `xs` it found. -/
def accOdd (c : Dev nD) (t : Fin cfg0.N) (h1 : t.val % 2 = 1) (xs : Vec F S64x64 .f32) : Vec F S64x64 .f32 :=
  sout0_B_0 c (grid0.coords t) (ms0_0 t) (hs0_0 t) (ms0_1 t) (hs0_1 t) (ms0_2 t) (hs0_2 t) (ms0_3 t) (hs0_3 t) scM0_0 (Memref.isWhole_whole _) (not_cond0_of_odd t h1) ((hcond0_1 t).mpr h1) (iblk0 V c 0 t) (iblk0 V c 1 t) (iblk0 V c 2 t) xs
/-- The output block after the odd point `t`. -/
def outOdd (c : Dev nD) (t : Fin cfg0.N) (h1 : t.val % 2 = 1) (xs : Vec F S64x64 .f32) : Vec F S1x1x64x64 .f32 :=
  out0_B_3 c (grid0.coords t) (ms0_0 t) (hs0_0 t) (ms0_1 t) (hs0_1 t) (ms0_2 t) (hs0_2 t) (ms0_3 t) (hs0_3 t) scM0_0 (Memref.isWhole_whole _) (not_cond0_of_odd t h1) ((hcond0_1 t).mpr h1) (iblk0 V c 0 t) (iblk0 V c 1 t) (iblk0 V c 2 t) xs

/-- The output block at a point that stores nothing into it: contents nothing consults (the window is idle there
    and is not written back). -/
def outIdle : Vec F S1x1x64x64 .f32 := VO0_3.read (Elt F) VO0_3.junk

/-- THE ACCUMULATION: the output block and the accumulator after the body at position `n`, by recursion on the
    position: an even point starts afresh, an odd point continues from the point before. -/
def outsAt0 (c : Dev nD) : (n : ℕ) → n < cfg0.N → Vec F S1x1x64x64 .f32 × Vec F S64x64 .f32
  | 0, hn => (outIdle, accEven V c ⟨0, hn⟩ (Nat.zero_mod _))
  | n + 1, hn =>
    if h0 : (n + 1) % 2 = 0 then
      (outIdle, accEven V c ⟨n + 1, hn⟩ h0)
    else
      (outOdd V c ⟨n + 1, hn⟩ (show (n + 1) % 2 = 1 by omega) (outsAt0 c n (Nat.lt_of_succ_lt hn)).2, accOdd V c ⟨n + 1, hn⟩ (show (n + 1) % 2 = 1 by omega) (outsAt0 c n (Nat.lt_of_succ_lt hn)).2)

theorem outsAt0_A (c : Dev nD) (t : Fin cfg0.N) (h0 : t.val % 2 = 0) :
    outsAt0 V c t.val t.isLt = (outIdle, accEven V c t h0) := by
  obtain ⟨n, hn⟩ := t
  cases n with
  | zero => rfl
  | succ n => exact dif_pos h0

theorem outsAt0_B (c : Dev nD) (t : Fin cfg0.N) (h1 : t.val % 2 = 1) :
    outsAt0 V c t.val t.isLt = (outOdd V c t h1 (outsAt0 V c (t.val - 1) (Nat.lt_of_le_of_lt (Nat.sub_le _ _) t.isLt)).2, accOdd V c t h1 (outsAt0 V c (t.val - 1) (Nat.lt_of_le_of_lt (Nat.sub_le _ _) t.isLt)).2) := by
  obtain ⟨n, hn⟩ := t
  cases n with
  | zero => exact absurd (show (0 : ℕ) % 2 = 1 from h1) (by decide)
  | succ n => exact dif_neg (fun h => by have h1' : (n + 1) % 2 = 1 := h1; omega)

/-- The region's invariant before position `n`: before the first point whatever the launch hands over; afterwards
    the accumulator at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ scRest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ scRest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ scRest0 (F := F) c) ∗ (∃ r, prngReg c r)) := by
  cases n with
  | zero => exact absurd rfl hz
  | succ n => rfl

/-! ## The proof data -/

/-- The proof data of the first region on core `c`: the arrays as the region finds them; after the body each
    input's buffer at its block, the output block at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Fr

end
-- ==== Proof.BR0Body.lean ====
/-
  The first region's body obligation: at every point the body, called on the point's staging buffers, runs to the
  end and leaves what the proof data says. At an even point the accumulator is handed over at any contents and
  taken back at that point's; at an odd point it is handed over at what the even point before left. The output
  block passes through an even point untouched.
-/
import proofs.«145427_j10582799417399_2_alg».proof.Proof.BR0Dat

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 96 := lt_of_lt_of_eq t.isLt (show cfg0.N = 96 from N_0)
  by_cases h0 : t.val % 2 = 0
  · have hc0 : cond0_0 (grid0.coords t) := (hcond0_0 t).mpr h0
    have hc1 : ¬cond0_1 (grid0.coords t) := not_cond1_of_even t h0
    rw [Dat.leavesExact_idle (dat0 V c) 3 t (idleAt0_3_A t hc0 hc1) (noFlush0_3_A t hc0 hc1)]
    rw [outsAt0_A V c t h0]
    unfold accEven sout0_A_0; (try dsimp only)
    by_cases hz : t.val = 0
    · rw [PhiS_castSucc V c t, PhiS_zero V c _ _ hz, PhiA0_eq']
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    have hc0 : ¬cond0_0 (grid0.coords t) := not_cond0_of_odd t h1
    have hc1 : cond0_1 (grid0.coords t) := (hcond0_1 t).mpr h1
    rw [show (dat0 V c).leavesExact 3 t = owns (c : Thread nD τ) (ms0_3 t) fullShare ((dat0 V c).after 3 t) from by
      unfold Dat.leavesExact; rw [liveAt0_3_B t hc0 hc1], after0_3]
    rw [outsAt0_B V c t h1]
    unfold outOdd accOdd out0_B_3 sout0_B_0; (try dsimp only)
    have hz : t.val ≠ 0 := by omega
    rw [PhiS_castSucc V c t, PhiS_pos V c _ _ hz]
    iintro ⟨⟨⟨HS0, Hrest⟩, Hg⟩, Ho, ⟨%d0, H0⟩, ⟨%d1, H1⟩, ⟨%d2, H2⟩, ⟨%d3, H3⟩⟩
    iapply ((kernelRun0_B c (grid0.coords t) _ _ _ _ _ _ _ _ _ _ hc0 hc1 (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives back what the launch handed over: the accumulator's named
    contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 96 := N_0; omega), PhiA0_eq']
  iintro ⟨⟨HS0, Hrest⟩, Hg⟩
  isplitl [HS0 Hrest]
  · isplitl [HS0]
    · iexists _; iexact HS0
    iexact Hrest
  iexact Hg

end Cert.Kernel.Fr

end
-- ==== Proof.BR1Kernel.lean ====
/-
  The second kernel (the normalised queries times K^T V, one block of 2048 positions per grid point): its body
  loads the query block and the K^T V block, and stores one value that covers the output block.
-/
import proofs.«145427_j10582799417399_2_alg».proof.Proof.Gen.Kernel.Launch
import proofs.«145427_j10582799417399_2_alg».proof.Proof.Gen.Kernel.Skeleton
import proofs.«145427_j10582799417399_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-block rectangles the body loads and stores through. -/
abbrev r1_0 : Rect S1x1x2048x64 := Rect.unit (s := S1x1x2048x64) ![0, 0, 0, 0] S1x1x2048x64.size inb_S1x1x2048x64_S1x1x2048x64_0_0_0_0
abbrev r1_1 : Rect S1x1x64x64 := Rect.unit (s := S1x1x64x64) ![0, 0, 0, 0] S1x1x64x64.size inb_S1x1x64x64_S1x1x64x64_0_0_0_0
abbrev r1_2 : Rect S1x1x1024x128 := Rect.unit (s := S1x1x1024x128) ![0, 0, 0, 0] S1x1x1024x128.size inb_S1x1x1024x128_S1x1x1024x128_0_0_0_0

/-- What the body leaves in the output block, from the two input blocks: its one store. -/
def out1_2 (x0 : Vec F S1x1x2048x64 .f32) (x1 : Vec F S1x1x64x64 .f32) : Vec F S1x1x1024x128 .f32 :=
  View.canon [⟨r1_2, k1_pay1 (View.ld x0 r1_0) (View.ld x1 r1_1)⟩]

/-- The store covers the block. -/
theorem cover1_2 (p0 : Vec F S1x1x1024x128 .f32) (y : S1x1x1024x128.Idx) :
    ∃ pc ∈ ([⟨r1_2, p0⟩] : List (View.Piece (Elt F) S1x1x1024x128 .f32)), y ∈ pc.1.set :=
  View.cover_of_tiled [⟨r1_2, p0⟩] S1x1x1024x128.size (by rfl) y

set_option maxHeartbeats 2000000 in
/-- The body on whole staging memrefs, the inputs at contents `x0`, `x1` and the output block at anything,
    runs to the end with the inputs as they were and the output block at `out1_2 x0 x1`. -/
theorem sound_kernel1 (c : Dev nD) (E : Set ℕ) (i : grid1.Coords) (arg3 : Memref sig .tc .vmem S1x1x2048x64 .f32) (harg3 : arg3.IsWhole) (arg4 : Memref sig .tc .vmem S1x1x64x64 .f32) (harg4 : arg4.IsWhole) (arg5 : Memref sig .tc .vmem S1x1x1024x128 .f32) (harg5 : arg5.IsWhole)
    (x0 : Vec F S1x1x2048x64 .f32) (x1 : Vec F S1x1x64x64 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out1_2 x0 x1)) -∗ K ⟨⟩))
      ⊢ wp frame (wpE (defs₀ (F := F)) Variants.none c none) E (cc1__out_kernel i arg3 harg3 arg4 harg4 arg5 harg5) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

end Cert.Kernel.Fr

end
-- ==== Proof.BR1Dat.lean ====
/-
  The second kernel's region at the contents `V` it is entered with: the query window's buffer holds its block at
  every point; the K^T V window's buffer holds the block of its (b, h) pair at every point, fetched there or not
  (its block index moves only every fourth point); the body's store leaves the output block at a function of the two.
-/
import proofs.«145427_j10582799417399_2_alg».proof.Proof.BR1Kernel

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.BRunAll.lean ====
/-
  The whole program as a run: the mask laid out as a row per batch entry, the first kernel's region, the second
  kernel's region, the final reshape. The contents of every buffer at each boundary are a fold from the launch
  memory: a host operation's result by applying it, a region's arrays at what its write-backs leave. Every weakly
  fair execution ends, nothing faults, and every unscoped buffer ends at the last boundary's contents.
-/
import proofs.«145427_j10582799417399_2_alg».proof.Proof.BR0Body
import proofs.«145427_j10582799417399_2_alg».proof.Proof.BR1Dat

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the mask's broadcast (the first region's entry). -/
abbrev W1 : Dev nD → Valuation τ sig (Elt F) := fun c => StableHlo.after hostOps0 (W0 m ρ c)
/-- The same read at the TensorCore's references. -/
abbrev E1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- After the final reshape. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays
    are split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (E1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays
    are split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .host (hseg hostOps2 hostOps2_sub hostOps2_fresh' (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer of every core ends at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => (show (iprop(StableHlo.held (c : Thread nD τ) (Pipeline.ucRefs τ sig) (W4 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Kernel.Fr

end
-- ==== Proof.BFrame.lean ====
/-
  The arguments end as launched. Neither host operation writes an argument, and a region only reads the
  arguments it stages (an input window's array ends as it was entered) or passes them by; so the fold of boundary
  contents, read at an argument's buffer, walks back to the launch memory. With the run this is the frame claim.
-/
import proofs.«145427_j10582799417399_2_alg».proof.Proof.BRunAll

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The queries: staged by the second region's window 0, passed by the first region. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (E2 m ρ) c).arrAt_in 0 rfl _).trans (A_eq1 (E2 m ρ) c 0))
    _ = W1 m ρ c (Proc.devRef .tc main_arg0) := W2_of_ne m ρ c main_arg0 (by decide)
    _ = W0 m ρ c (Proc.devRef .tc main_arg0) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The keys: staged by the first region's window 1, passed by the second. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (E1 m ρ) c).arrAt_in 1 rfl _).trans (A_eq0 (E1 m ρ) c 1))
    _ = W0 m ρ c (Proc.devRef .tc main_arg1) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The values: staged by the first region's window 2, passed by the second. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (E1 m ρ) c).arrAt_in 2 rfl _).trans (A_eq0 (E1 m ρ) c 2))
    _ = W0 m ρ c (Proc.devRef .tc main_arg2) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The mask: read by the first host operation only; both regions pass it by. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The final reshape writes none of them. -/
theorem W4_of_arg (c : Dev nD) (b : Ref sig .tc) (hb : b ≠ main_v3) : W4 m ρ c (Proc.devRef .tc b) = W3 m ρ c (Proc.devRef .tc b) :=
  StableHlo.after_of_forall_not_mem _ _ (List.forall_iff_forall_mem.mp (by
    simp only [hostOps2, List.Forall, StableHlo.reshape_writes, Finset.mem_singleton]
    exact StableHlo.devRef_ne_of_ne hb))

/-- The run with the arguments read back: every argument array ends as launched, and the result buffer at the
    last boundary's contents. -/
theorem run_read : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v3 (by decide)),
     (h c _ (mem_uc main_arg0 (by decide))).trans ((W4_of_arg m ρ c main_arg0 (by decide)).trans (W3_main_arg0 m ρ c)),
     (h c _ (mem_uc main_arg1 (by decide))).trans ((W4_of_arg m ρ c main_arg1 (by decide)).trans (W3_main_arg1 m ρ c)),
     (h c _ (mem_uc main_arg2 (by decide))).trans ((W4_of_arg m ρ c main_arg2 (by decide)).trans (W3_main_arg2 m ρ c)),
     (h c _ (mem_uc main_arg3 (by decide))).trans ((W4_of_arg m ρ c main_arg3 (by decide)).trans (W3_main_arg3 m ρ c))⟩)
    (run_all m ρ)

/-- THE FRAME, at any F: every weakly fair execution terminates, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_read m ρ)

end Cert.Kernel.Fr

end
-- ==== Proof.R0Defs.lean ====
/-
  The first kernel (K^T V accumulated over two tiles of 4096 positions) on its grid of 4 x 12 x 2 points:
  which of its two branches a point takes, and where its output window is idle.
  At a point with last coordinate 0 the accumulator is reset before the tile's product is added and nothing is
  stored into the output block; at a point with last coordinate 1 the product is added to what the point before
  left and the accumulator is copied into the output block, which the pipeline then writes back.
-/
import proofs.«145427_j10582799417399_2_alg».proof.Proof.Gen.KernelIdeal.Launch
import proofs.«145427_j10582799417399_2_alg».proof.Proof.Gen.KernelIdeal.Skeleton
import proofs.«145427_j10582799417399_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first tile": the reset branch's condition, from the grid coordinates. -/
abbrev cond0_0 (i : grid0.Coords) : Prop := (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- "This is the last tile": the write-out branch's condition. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At an even point the output window is idle and is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At an odd point it is live. -/
theorem liveAt0_3_B : ∀ t : Fin cfg0.N, ¬cond0_0 (grid0.coords t) → cond0_1 (grid0.coords t) → cfg0.idle 3 (grid0.coords t) = false := by decide +kernel

/-- Each window's current staging memref at point `t`, as the pipeline passes it to the body. -/
abbrev ms0_0 (t : Fin cfg0.N) : Memref sig .tc .vmem S1x1x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4096x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64x64 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S64x64 .f32 := Memref.whole cc0_scratch0
/-- The accumulator and the output block as views, through which their contents are stated. -/
abbrev VS0_0 : View sig .tc .vmem S64x64 .f32 := scM0_0.view
abbrev VO0_3 : View sig .tc .vmem S1x1x64x64 .f32 := (Memref.whole cc0_stg3_0 : Memref sig .tc .vmem S1x1x64x64 .f32).view

/-- What the region may use and need not describe, with the accumulator split out as a memref owned at some
    contents beside the other scoped buffers. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0_0, owns_whole]; try rfl

/-- The scoped buffers of the core other than this region's staging buffers and its accumulator (the second
    region's staging buffers), each whole at some contents: the region never touches them. -/
def scRest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The same with those buffers named as one term. -/
theorem PhiA0_eq' (c : Dev nD) :
    (Pipeline.ΦA spec0 c : sProp 𝕄)
      = iprop(iprop((∃ d, owns (c : Thread nD τ) scM0_0 fullShare d) ∗ scRest0 (F := F) c) ∗ (∃ r, prngReg c r)) := by
  rw [PhiA0_eq]; rfl

end Cert.KernelIdeal.Fr

end
-- ==== Proof.R0RunA.lean ====
/-
  The first kernel's body at an even point (the first tile of a (b, h) pair): the accumulator is overwritten with
  zeros, the tile's product is added, and the output block is handed back as it was found.
  The run records, as a list of stores (newest first), what the accumulator ends with.
-/
import proofs.«145427_j10582799417399_2_alg».proof.Proof.R0Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the accumulator at an even point, with the proof that from the three input
    blocks at their contents, the output block at any contents and the accumulator at any contents the body runs
    to the end, the inputs and the output block unchanged, the accumulator with those stores applied. -/
noncomputable def kernelRun0_A (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : cond0_0 i) (hc1 : ¬cond0_1 i)
    (x0 : Vec F S1x1x4096 .f32) (x1 : Vec F S1x1x4096x64 .f32) (x2 : Vec F S1x1x4096x64 .f32) :
    { LS0 : List (View.Piece (Elt F) S64x64 .f32) //
      ∀ (xi3 : Vec F S1x1x64x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__ktv_kernel i arg3 harg3 arg4 harg4 arg5 harg5 arg6 harg6 arg7 harg7) K } := by
  refine ⟨?_, fun xi3 E K => ?run⟩
  case run =>
    simp only [cc0__ktv_kernel_eq_skeleton]; unfold cc0__ktv_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Fr

end
-- ==== Proof.R0RunB.lean ====
/-
  The first kernel's body at an odd point (the last tile of a (b, h) pair): the tile's product is added to what
  the point before left in the accumulator, and the accumulator is copied into the output block.
  The run records, as lists of stores (newest first), what the output block and the accumulator end with.
-/
import proofs.«145427_j10582799417399_2_alg».proof.Proof.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output block and in the accumulator at an odd point, with the proof that
    from the three input blocks at their contents, the output block at any contents and the accumulator at
    `xs0` the body runs to the end, the inputs unchanged, the output block and the accumulator with those stores applied. -/
noncomputable def kernelRun0_B (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : ¬cond0_0 i) (hc1 : cond0_1 i)
    (x0 : Vec F S1x1x4096 .f32) (x1 : Vec F S1x1x4096x64 .f32) (x2 : Vec F S1x1x4096x64 .f32) (xs0 : Vec F S64x64 .f32) :
    Σ' (L3 : List (View.Piece (Elt F) S1x1x64x64 .f32)), { LS0 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__ktv_kernel i arg3 harg3 arg4 harg4 arg5 harg5 arg6 harg6 arg7 harg7) K } := by
  refine ⟨?_, ?_, fun E K => ?run⟩
  case run =>
    simp only [cc0__ktv_kernel_eq_skeleton]; unfold cc0__ktv_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

end Cert.KernelIdeal.Fr

end
-- ==== Proof.R0Dat.lean ====
/-
  The first kernel's region, point by point, at the contents `V` the region is entered with.
  Each input window's buffer holds its block of the array at every point. The accumulator after an even point is
  what the reset-and-add body leaves from that point's blocks; after an odd point it is what the add body leaves
  from that point's blocks and the accumulator of the point before; the output block after an odd point is what
  that body copies out of the accumulator. Between points the region's invariant keeps the accumulator at exactly
  these contents, so the odd point finds what the even point left.
-/
import proofs.«145427_j10582799417399_2_alg».proof.Proof.R0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each branch leaves -/

/-- At an even point the stores into the accumulator cover it. -/
theorem scover0_A_0 (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : cond0_0 i) (hc1 : ¬cond0_1 i)
    (x0 : Vec F S1x1x4096 .f32) (x1 : Vec F S1x1x4096x64 .f32) (x2 : Vec F S1x1x4096x64 .f32) (y : S64x64.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S64x64.size (by sl_kernel_rfl) y

/-- What an even point leaves in the accumulator. -/
def sout0_A_0 (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : cond0_0 i) (hc1 : ¬cond0_1 i)
    (x0 : Vec F S1x1x4096 .f32) (x1 : Vec F S1x1x4096x64 .f32) (x2 : Vec F S1x1x4096x64 .f32) : Vec F S64x64 .f32 :=
  VS0_0.read (Elt F) (VS0_0.writes (Elt F) VS0_0.junk (kernelRun0_A c i arg3 harg3 arg4 harg4 arg5 harg5 arg6 harg6 arg7 harg7 hc0 hc1 x0 x1 x2).1)

/-- At an odd point the store into the output block covers it. -/
theorem cover0_B_3 (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : ¬cond0_0 i) (hc1 : cond0_1 i)
    (x0 : Vec F S1x1x4096 .f32) (x1 : Vec F S1x1x4096x64 .f32) (x2 : Vec F S1x1x4096x64 .f32) (xs0 : Vec F S64x64 .f32) (y : S1x1x64x64.Idx) :
    ∃ pc ∈ (kernelRun0_B c i arg3 harg3 arg4 harg4 arg5 harg5 arg6 harg6 arg7 harg7 hc0 hc1 x0 x1 x2 xs0).1, y ∈ pc.1.set :=
  View.cover_of_tiledL (kernelRun0_B c i arg3 harg3 arg4 harg4 arg5 harg5 arg6 harg6 arg7 harg7 hc0 hc1 x0 x1 x2 xs0).1 S1x1x64x64.size (by sl_kernel_rfl) y

/-- What an odd point leaves in the output block. -/
def out0_B_3 (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : ¬cond0_0 i) (hc1 : cond0_1 i)
    (x0 : Vec F S1x1x4096 .f32) (x1 : Vec F S1x1x4096x64 .f32) (x2 : Vec F S1x1x4096x64 .f32) (xs0 : Vec F S64x64 .f32) : Vec F S1x1x64x64 .f32 :=
  VO0_3.read (Elt F) (VO0_3.writes (Elt F) VO0_3.junk (kernelRun0_B c i arg3 harg3 arg4 harg4 arg5 harg5 arg6 harg6 arg7 harg7 hc0 hc1 x0 x1 x2 xs0).1)

/-- At an odd point the store into the accumulator covers it. -/
theorem scover0_B_0 (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : ¬cond0_0 i) (hc1 : cond0_1 i)
    (x0 : Vec F S1x1x4096 .f32) (x1 : Vec F S1x1x4096x64 .f32) (x2 : Vec F S1x1x4096x64 .f32) (xs0 : Vec F S64x64 .f32) (y : S64x64.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S64x64.size (by sl_kernel_rfl) y

/-- What an odd point leaves in the accumulator. -/
def sout0_B_0 (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : ¬cond0_0 i) (hc1 : cond0_1 i)
    (x0 : Vec F S1x1x4096 .f32) (x1 : Vec F S1x1x4096x64 .f32) (x2 : Vec F S1x1x4096x64 .f32) (xs0 : Vec F S64x64 .f32) : Vec F S64x64 .f32 :=
  VS0_0.read (Elt F) (VS0_0.writes (Elt F) VS0_0.junk (kernelRun0_B c i arg3 harg3 arg4 harg4 arg5 harg5 arg6 harg6 arg7 harg7 hc0 hc1 x0 x1 x2 xs0).2.1)

/-- An even point is no odd point. -/
theorem not_cond1_of_even (t : Fin cfg0.N) (h0 : t.val % 2 = 0) : ¬cond0_1 (grid0.coords t) :=
  fun h => by have := (hcond0_1 t).mp h; omega
theorem not_cond0_of_odd (t : Fin cfg0.N) (h1 : t.val % 2 = 1) : ¬cond0_0 (grid0.coords t) :=
  fun h => by have := (hcond0_0 t).mp h; omega

/-- The accumulator after the even point `t`, from that point's blocks. -/
def accEven (c : Dev nD) (t : Fin cfg0.N) (h0 : t.val % 2 = 0) : Vec F S64x64 .f32 :=
  sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (not_cond1_of_even t h0) (iblk0 V c 0 t) (iblk0 V c 1 t) (iblk0 V c 2 t)
/-- The accumulator after the odd point `t`, from that point's blocks and the accumulator `xs` it found. -/
def accOdd (c : Dev nD) (t : Fin cfg0.N) (h1 : t.val % 2 = 1) (xs : Vec F S64x64 .f32) : Vec F S64x64 .f32 :=
  sout0_B_0 c (grid0.coords t) (ms0_0 t) (hs0_0 t) (ms0_1 t) (hs0_1 t) (ms0_2 t) (hs0_2 t) (ms0_3 t) (hs0_3 t) scM0_0 (Memref.isWhole_whole _) (not_cond0_of_odd t h1) ((hcond0_1 t).mpr h1) (iblk0 V c 0 t) (iblk0 V c 1 t) (iblk0 V c 2 t) xs
/-- The output block after the odd point `t`. -/
def outOdd (c : Dev nD) (t : Fin cfg0.N) (h1 : t.val % 2 = 1) (xs : Vec F S64x64 .f32) : Vec F S1x1x64x64 .f32 :=
  out0_B_3 c (grid0.coords t) (ms0_0 t) (hs0_0 t) (ms0_1 t) (hs0_1 t) (ms0_2 t) (hs0_2 t) (ms0_3 t) (hs0_3 t) scM0_0 (Memref.isWhole_whole _) (not_cond0_of_odd t h1) ((hcond0_1 t).mpr h1) (iblk0 V c 0 t) (iblk0 V c 1 t) (iblk0 V c 2 t) xs

/-- The output block at a point that stores nothing into it: contents nothing consults (the window is idle there
    and is not written back). -/
def outIdle : Vec F S1x1x64x64 .f32 := VO0_3.read (Elt F) VO0_3.junk

/-- THE ACCUMULATION: the output block and the accumulator after the body at position `n`, by recursion on the
    position: an even point starts afresh, an odd point continues from the point before. -/
def outsAt0 (c : Dev nD) : (n : ℕ) → n < cfg0.N → Vec F S1x1x64x64 .f32 × Vec F S64x64 .f32
  | 0, hn => (outIdle, accEven V c ⟨0, hn⟩ (Nat.zero_mod _))
  | n + 1, hn =>
    if h0 : (n + 1) % 2 = 0 then
      (outIdle, accEven V c ⟨n + 1, hn⟩ h0)
    else
      (outOdd V c ⟨n + 1, hn⟩ (show (n + 1) % 2 = 1 by omega) (outsAt0 c n (Nat.lt_of_succ_lt hn)).2, accOdd V c ⟨n + 1, hn⟩ (show (n + 1) % 2 = 1 by omega) (outsAt0 c n (Nat.lt_of_succ_lt hn)).2)

theorem outsAt0_A (c : Dev nD) (t : Fin cfg0.N) (h0 : t.val % 2 = 0) :
    outsAt0 V c t.val t.isLt = (outIdle, accEven V c t h0) := by
  obtain ⟨n, hn⟩ := t
  cases n with
  | zero => rfl
  | succ n => exact dif_pos h0

theorem outsAt0_B (c : Dev nD) (t : Fin cfg0.N) (h1 : t.val % 2 = 1) :
    outsAt0 V c t.val t.isLt = (outOdd V c t h1 (outsAt0 V c (t.val - 1) (Nat.lt_of_le_of_lt (Nat.sub_le _ _) t.isLt)).2, accOdd V c t h1 (outsAt0 V c (t.val - 1) (Nat.lt_of_le_of_lt (Nat.sub_le _ _) t.isLt)).2) := by
  obtain ⟨n, hn⟩ := t
  cases n with
  | zero => exact absurd (show (0 : ℕ) % 2 = 1 from h1) (by decide)
  | succ n => exact dif_neg (fun h => by have h1' : (n + 1) % 2 = 1 := h1; omega)

/-- The region's invariant before position `n`: before the first point whatever the launch hands over; afterwards
    the accumulator at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ scRest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ scRest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ scRest0 (F := F) c) ∗ (∃ r, prngReg c r)) := by
  cases n with
  | zero => exact absurd rfl hz
  | succ n => rfl

/-! ## The proof data -/

/-- The proof data of the first region on core `c`: the arrays as the region finds them; after the body each
    input's buffer at its block, the output block at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Fr

end
-- ==== Proof.R0Body.lean ====
/-
  The first region's body obligation: at every point the body, called on the point's staging buffers, runs to the
  end and leaves what the proof data says. At an even point the accumulator is handed over at any contents and
  taken back at that point's; at an odd point it is handed over at what the even point before left. The output
  block passes through an even point untouched.
-/
import proofs.«145427_j10582799417399_2_alg».proof.Proof.R0Dat

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 96 := lt_of_lt_of_eq t.isLt (show cfg0.N = 96 from N_0)
  by_cases h0 : t.val % 2 = 0
  · have hc0 : cond0_0 (grid0.coords t) := (hcond0_0 t).mpr h0
    have hc1 : ¬cond0_1 (grid0.coords t) := not_cond1_of_even t h0
    rw [Dat.leavesExact_idle (dat0 V c) 3 t (idleAt0_3_A t hc0 hc1) (noFlush0_3_A t hc0 hc1)]
    rw [outsAt0_A V c t h0]
    unfold accEven sout0_A_0; (try dsimp only)
    by_cases hz : t.val = 0
    · rw [PhiS_castSucc V c t, PhiS_zero V c _ _ hz, PhiA0_eq']
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    have hc0 : ¬cond0_0 (grid0.coords t) := not_cond0_of_odd t h1
    have hc1 : cond0_1 (grid0.coords t) := (hcond0_1 t).mpr h1
    rw [show (dat0 V c).leavesExact 3 t = owns (c : Thread nD τ) (ms0_3 t) fullShare ((dat0 V c).after 3 t) from by
      unfold Dat.leavesExact; rw [liveAt0_3_B t hc0 hc1], after0_3]
    rw [outsAt0_B V c t h1]
    unfold outOdd accOdd out0_B_3 sout0_B_0; (try dsimp only)
    have hz : t.val ≠ 0 := by omega
    rw [PhiS_castSucc V c t, PhiS_pos V c _ _ hz]
    iintro ⟨⟨⟨HS0, Hrest⟩, Hg⟩, Ho, ⟨%d0, H0⟩, ⟨%d1, H1⟩, ⟨%d2, H2⟩, ⟨%d3, H3⟩⟩
    iapply ((kernelRun0_B c (grid0.coords t) _ _ _ _ _ _ _ _ _ _ hc0 hc1 (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives back what the launch handed over: the accumulator's named
    contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 96 := N_0; omega), PhiA0_eq']
  iintro ⟨⟨HS0, Hrest⟩, Hg⟩
  isplitl [HS0 Hrest]
  · isplitl [HS0]
    · iexists _; iexact HS0
    iexact Hrest
  iexact Hg

end Cert.KernelIdeal.Fr

end
-- ==== Proof.R1Kernel.lean ====
/-
  The second kernel (the normalised queries times K^T V, one block of 2048 positions per grid point): its body
  loads the query block and the K^T V block, and stores one value that covers the output block.
-/
import proofs.«145427_j10582799417399_2_alg».proof.Proof.Gen.KernelIdeal.Launch
import proofs.«145427_j10582799417399_2_alg».proof.Proof.Gen.KernelIdeal.Skeleton
import proofs.«145427_j10582799417399_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-block rectangles the body loads and stores through. -/
abbrev r1_0 : Rect S1x1x2048x64 := Rect.unit (s := S1x1x2048x64) ![0, 0, 0, 0] S1x1x2048x64.size inb_S1x1x2048x64_S1x1x2048x64_0_0_0_0
abbrev r1_1 : Rect S1x1x64x64 := Rect.unit (s := S1x1x64x64) ![0, 0, 0, 0] S1x1x64x64.size inb_S1x1x64x64_S1x1x64x64_0_0_0_0
abbrev r1_2 : Rect S1x1x1024x128 := Rect.unit (s := S1x1x1024x128) ![0, 0, 0, 0] S1x1x1024x128.size inb_S1x1x1024x128_S1x1x1024x128_0_0_0_0

/-- What the body leaves in the output block, from the two input blocks: its one store. -/
def out1_2 (x0 : Vec F S1x1x2048x64 .f32) (x1 : Vec F S1x1x64x64 .f32) : Vec F S1x1x1024x128 .f32 :=
  View.canon [⟨r1_2, k1_pay1 (View.ld x0 r1_0) (View.ld x1 r1_1)⟩]

/-- The store covers the block. -/
theorem cover1_2 (p0 : Vec F S1x1x1024x128 .f32) (y : S1x1x1024x128.Idx) :
    ∃ pc ∈ ([⟨r1_2, p0⟩] : List (View.Piece (Elt F) S1x1x1024x128 .f32)), y ∈ pc.1.set :=
  View.cover_of_tiled [⟨r1_2, p0⟩] S1x1x1024x128.size (by rfl) y

set_option maxHeartbeats 2000000 in
/-- The body on whole staging memrefs, the inputs at contents `x0`, `x1` and the output block at anything,
    runs to the end with the inputs as they were and the output block at `out1_2 x0 x1`. -/
theorem sound_kernel1 (c : Dev nD) (E : Set ℕ) (i : grid1.Coords) (arg3 : Memref sig .tc .vmem S1x1x2048x64 .f32) (harg3 : arg3.IsWhole) (arg4 : Memref sig .tc .vmem S1x1x64x64 .f32) (harg4 : arg4.IsWhole) (arg5 : Memref sig .tc .vmem S1x1x1024x128 .f32) (harg5 : arg5.IsWhole)
    (x0 : Vec F S1x1x2048x64 .f32) (x1 : Vec F S1x1x64x64 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out1_2 x0 x1)) -∗ K ⟨⟩))
      ⊢ wp frame (wpE (defs₀ (F := F)) Variants.none c none) E (cc1__out_kernel i arg3 harg3 arg4 harg4 arg5 harg5) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

end Cert.KernelIdeal.Fr

end
-- ==== Proof.R1Dat.lean ====
/-
  The second kernel's region at the contents `V` it is entered with: the query window's buffer holds its block at
  every point; the K^T V window's buffer holds the block of its (b, h) pair at every point, fetched there or not
  (its block index moves only every fourth point); the body's store leaves the output block at a function of the two.
-/
import proofs.«145427_j10582799417399_2_alg».proof.Proof.R1Kernel

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.RunAll.lean ====
/-
  The whole program as a run: the mask laid out as a row per batch entry, the first kernel's region, the second
  kernel's region, the final reshape. The contents of every buffer at each boundary are a fold from the launch
  memory: a host operation's result by applying it, a region's arrays at what its write-backs leave. Every weakly
  fair execution ends, nothing faults, and every unscoped buffer ends at the last boundary's contents.
-/
import proofs.«145427_j10582799417399_2_alg».proof.Proof.R0Body
import proofs.«145427_j10582799417399_2_alg».proof.Proof.R1Dat

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the mask's broadcast (the first region's entry). -/
abbrev W1 : Dev nD → Valuation τ sig (Elt F) := fun c => StableHlo.after hostOps0 (W0 m ρ c)
/-- The same read at the TensorCore's references. -/
abbrev E1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- After the final reshape. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays
    are split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (E1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays
    are split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .host (hseg hostOps2 hostOps2_sub hostOps2_fresh' (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer of every core ends at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => (show (iprop(StableHlo.held (c : Thread nD τ) (Pipeline.ucRefs τ sig) (W4 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Fr

end
-- ==== Proof.Frame.lean ====
/-
  The arguments end as launched. Neither host operation writes an argument, and a region only reads the
  arguments it stages (an input window's array ends as it was entered) or passes them by; so the fold of boundary
  contents, read at an argument's buffer, walks back to the launch memory. With the run this is the frame claim.
-/
import proofs.«145427_j10582799417399_2_alg».proof.Proof.RunAll

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The queries: staged by the second region's window 0, passed by the first region. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (E2 m ρ) c).arrAt_in 0 rfl _).trans (A_eq1 (E2 m ρ) c 0))
    _ = W1 m ρ c (Proc.devRef .tc main_arg0) := W2_of_ne m ρ c main_arg0 (by decide)
    _ = W0 m ρ c (Proc.devRef .tc main_arg0) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The keys: staged by the first region's window 1, passed by the second. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (E1 m ρ) c).arrAt_in 1 rfl _).trans (A_eq0 (E1 m ρ) c 1))
    _ = W0 m ρ c (Proc.devRef .tc main_arg1) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The values: staged by the first region's window 2, passed by the second. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (E1 m ρ) c).arrAt_in 2 rfl _).trans (A_eq0 (E1 m ρ) c 2))
    _ = W0 m ρ c (Proc.devRef .tc main_arg2) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The mask: read by the first host operation only; both regions pass it by. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The final reshape writes none of them. -/
theorem W4_of_arg (c : Dev nD) (b : Ref sig .tc) (hb : b ≠ main_v3) : W4 m ρ c (Proc.devRef .tc b) = W3 m ρ c (Proc.devRef .tc b) :=
  StableHlo.after_of_forall_not_mem _ _ (List.forall_iff_forall_mem.mp (by
    simp only [hostOps2, List.Forall, StableHlo.reshape_writes, Finset.mem_singleton]
    exact StableHlo.devRef_ne_of_ne hb))

/-- The run with the arguments read back: every argument array ends as launched, and the result buffer at the
    last boundary's contents. -/
theorem run_read : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v3 (by decide)),
     (h c _ (mem_uc main_arg0 (by decide))).trans ((W4_of_arg m ρ c main_arg0 (by decide)).trans (W3_main_arg0 m ρ c)),
     (h c _ (mem_uc main_arg1 (by decide))).trans ((W4_of_arg m ρ c main_arg1 (by decide)).trans (W3_main_arg1 m ρ c)),
     (h c _ (mem_uc main_arg2 (by decide))).trans ((W4_of_arg m ρ c main_arg2 (by decide)).trans (W3_main_arg2 m ρ c)),
     (h c _ (mem_uc main_arg3 (by decide))).trans ((W4_of_arg m ρ c main_arg3 (by decide)).trans (W3_main_arg3 m ρ c))⟩)
    (run_all m ρ)

/-- THE FRAME, at any F: every weakly fair execution terminates, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_read m ρ)

end Cert.KernelIdeal.Fr

end
-- ==== Proof.Spec.lean ====
/-
  Cosine-normalised linear attention, stated once over the extended reals.

  For arrays Q, K, V of shape [4, 12, 8192, 64] and a mask M of shape [4, 8192]:
  each row of Q and of K is divided by its Euclidean norm clipped below at eps and scaled by N^(-1/4),
  K's rows and V's rows are multiplied by the mask entry of their position,
  KtV[b,h,d,e] is the sum over the 8192 positions n of Kf[b,h,n,d] * Vm[b,h,n,e],
  and the result at [b,h,n,e] is the sum over d of Qf[b,h,n,d] * KtV[b,h,d,e].
  The two float literals (eps and the scale) are kept as their binary words: both programs carry the same words.
-/
import Idealize.ShloMosaic.PureOps.Ideal
import Idealize.ShloMosaic.PureOps.Ideal.Laws
import Idealize.ShloMosaic.Lib.ValueIdx

noncomputable section

open scoped BigOperators

namespace Cert.CosAttn

open Idealize.ShloMosaic Idealize.ShloMosaic.ValueIdx

/-- A [4, 12, 8192, 64] array of extended reals. -/
abbrev Arr4 : Type := (⟨4, ![4, 12, 8192, 64]⟩ : Shape).Idx → EReal
/-- A [4, 8192] mask. -/
abbrev Mask : Type := (⟨2, ![4, 8192]⟩ : Shape).Idx → EReal
/-- A [4, 12, 64, 64] array (the K^T V products). -/
abbrev ArrKtV : Type := (⟨4, ![4, 12, 64, 64]⟩ : Shape).Idx → EReal

/-- The clip below which a row norm is not allowed to fall (the f32 word nearest 1e-12). -/
def eps : EReal := Ideal.ofBits .f32 0x2B8CBCCC#32
/-- The scale N^(-1/4), N = 8192, as the f32 word both programs carry. -/
def scale : EReal := Ideal.ofBits .f32 0x3DD744FD#32

/-- The Euclidean norm of row (b, h, n) of X, clipped below at eps. -/
def rowNorm (X : Arr4) (b : Fin 4) (h : Fin 12) (n : Fin 8192) : EReal :=
  max (Ideal.sqrt (∑ d : Fin 64, X (ix4 b h n d) * X (ix4 b h n d))) eps

/-- The normalised, scaled query entry. -/
def qf (Q : Arr4) (b : Fin 4) (h : Fin 12) (n : Fin 8192) (d : Fin 64) : EReal :=
  Ideal.div (Q (ix4 b h n d)) (rowNorm Q b h n) * scale

/-- The normalised, masked, scaled key entry. -/
def kf (K : Arr4) (M : Mask) (b : Fin 4) (h : Fin 12) (n : Fin 8192) (d : Fin 64) : EReal :=
  Ideal.div (K (ix4 b h n d)) (rowNorm K b h n) * M (ix2 b n) * scale

/-- The masked value entry. -/
def vm (V : Arr4) (M : Mask) (b : Fin 4) (h : Fin 12) (n : Fin 8192) (e : Fin 64) : EReal :=
  V (ix4 b h n e) * M (ix2 b n)

/-- K^T V at (b, h, d, e): the sum over all 8192 positions. -/
def ktv (K V : Arr4) (M : Mask) (b : Fin 4) (h : Fin 12) (d e : Fin 64) : EReal :=
  ∑ n : Fin 8192, kf K M b h n d * vm V M b h n e

/-- K^T V as an array. -/
def ktvArr (K V : Arr4) (M : Mask) : ArrKtV := fun i => ktv K V M (i 0) (i 1) (i 2) (i 3)

/-- The attention output at (b, h, n, e). -/
def out (Q K V : Arr4) (M : Mask) (b : Fin 4) (h : Fin 12) (n : Fin 8192) (e : Fin 64) : EReal :=
  ∑ d : Fin 64, qf Q b h n d * ktv K V M b h d e

/-- The attention output as an array: the function both programs compute. -/
def outArr (Q K V : Arr4) (M : Mask) : Arr4 := fun i => out Q K V M (i 0) (i 1) (i 2) (i 3)

/-- A sum over 8192 positions is the sum over the first 4096 plus the sum over the last 4096
    (addition of extended reals is commutative and associative: no finiteness is needed). -/
theorem sum_halves (f : Fin 8192 → EReal) :
    ∑ n : Fin 8192, f n
      = (∑ n : Fin 4096, f ⟨n.val, by omega⟩) + ∑ n : Fin 4096, f ⟨4096 + n.val, by omega⟩ := by
  have h := Fin.sum_univ_add (M := EReal) (a := 4096) (b := 4096) (fun i : Fin (4096 + 4096) => f ⟨i.val, by omega⟩)
  refine (Eq.trans ?_ h).trans ?_
  · rfl
  · rfl

/-- K^T V accumulated tile by tile — zero, plus the first 4096 positions, plus the last 4096 — is the whole sum. -/
theorem ktv_two_tiles (K V : Arr4) (M : Mask) (b : Fin 4) (h : Fin 12) (d e : Fin 64) :
    ((0 : EReal) + ∑ n : Fin 4096, kf K M b h ⟨n.val, by omega⟩ d * vm V M b h ⟨n.val, by omega⟩ e)
        + ∑ n : Fin 4096, kf K M b h ⟨4096 + n.val, by omega⟩ d * vm V M b h ⟨4096 + n.val, by omega⟩ e
      = ktv K V M b h d e := by
  unfold ktv
  rw [sum_halves (fun n => kf K M b h n d * vm V M b h n e), zero_add]

end Cert.CosAttn

end
-- ==== Proof.SpecK.lean ====
/-
  The specification in the layouts the kernels use.
  The first kernel reads the mask as a [4, 1, 8192] array (a row per batch entry); the second writes its result
  with two consecutive positions packed into one 128-wide row, [4, 12, 4096, 128]: row r, lane c holds position
  2r + c / 64, feature c % 64. Unpacking that layout row-major gives back the [4, 12, 8192, 64] result.
-/
import proofs.«145427_j10582799417399_2_alg».proof.Proof.Spec

noncomputable section

open scoped BigOperators

namespace Cert.CosAttn

open Idealize.ShloMosaic Idealize.ShloMosaic.ValueIdx

/-- A [4, 1, 8192] mask. -/
abbrev Mask3 : Type := (⟨3, ![4, 1, 8192]⟩ : Shape).Idx → EReal
/-- The packed result layout. -/
abbrev ArrPacked : Type := (⟨4, ![4, 12, 4096, 128]⟩ : Shape).Idx → EReal

/-- The rank-3 mask read as a [4, 8192] mask. -/
def mask2 (M3 : Mask3) : Mask := fun j => M3 (ix3 (j 0) (0 : Fin 1) (j 1))

theorem mask2_apply (M3 : Mask3) (b : Fin 4) (n : Fin 8192) : mask2 M3 (ix2 b n) = M3 (ix3 b (0 : Fin 1) n) := rfl

/-- The attention output from the queries and a K^T V array, in the packed layout. -/
def outPacked (Q : Arr4) (T : ArrKtV) : ArrPacked := fun i =>
  ∑ d : Fin 64, qf Q (i 0) (i 1) (⟨2 * (i 2).val + (i 3).val / 64, by have := (i 2).isLt; have := (i 3).isLt; change (i 2).val < 4096 at *; change (i 3).val < 128 at *; omega⟩ : Fin 8192) d
      * T (ix4 (i 0) (i 1) d (⟨(i 3).val % 64, Nat.mod_lt _ (by decide)⟩ : Fin 64))

/-- Unpacked row-major, the packed output of the true K^T V is the attention output. -/
theorem outPacked_unpack (Q K V : Arr4) (M : Mask) (b : Fin 4) (h : Fin 12) (n : Fin 8192) (e : Fin 64) :
    outPacked Q (ktvArr K V M) (ix4 b h (⟨n.val / 2, by omega⟩ : Fin 4096) (⟨(n.val % 2) * 64 + e.val, by omega⟩ : Fin 128))
      = out Q K V M b h n e := by
  unfold outPacked out ktvArr
  have hn : (⟨2 * (n.val / 2) + ((n.val % 2) * 64 + e.val) / 64, by omega⟩ : Fin 8192) = n := Fin.ext (by show 2 * (n.val / 2) + ((n.val % 2) * 64 + e.val) / 64 = n.val; omega)
  have he : (⟨((n.val % 2) * 64 + e.val) % 64, Nat.mod_lt _ (by decide)⟩ : Fin 64) = e := Fin.ext (by show ((n.val % 2) * 64 + e.val) % 64 = e.val; omega)
  refine Finset.sum_congr rfl fun d _ => ?_
  show qf Q b h (⟨2 * (n.val / 2) + ((n.val % 2) * 64 + e.val) / 64, _⟩ : Fin 8192) d * ktv K V M b h d (⟨((n.val % 2) * 64 + e.val) % 64, _⟩ : Fin 64) = _
  rw [hn, he]

end Cert.CosAttn

end
-- ==== Proof.HostLayout.lean ====
/-
  The two layout operations of the kernel's host program, read at an index given by its coordinates:
  the mask broadcast to [4, 1, 8192] reads the mask at (b, n); the final reshape of a [4, 12, 4096, 128]
  array to [4, 12, 8192, 64] reads, at (b, h, n, e), row n / 2 and column (n % 2) * 64 + e, since both arrays
  list the same elements in row-major order.
-/
import proofs.«145427_j10582799417399_2_alg».proof.KernelIdeal
import Idealize.ShloMosaic.Lib.ValueIdx
import Idealize.ShloMosaic.Lib.ValueLayout
import Idealize.ShloMosaic.Lib.Pipeline.Value

noncomputable section

namespace Cert.CosAttn.Host

open Idealize.ShloMosaic Idealize.ShloMosaic.ValueIdx

/-- The mask broadcast along a unit axis, for any proof of the broadcast's side condition and any element type. -/
theorem mask3_at_of {α : Type}
    (hb : Cert.KernelIdeal.S4x8192.BroadcastsInDim Cert.KernelIdeal.S4x1x8192 (![0, 2] : Fin 2 → Fin Cert.KernelIdeal.S4x1x8192.rank))
    (x : Cert.KernelIdeal.S4x8192.Idx → α) (b : Fin 4) (u : Fin 1) (n : Fin 8192) :
    broadcastInDim Cert.KernelIdeal.S4x1x8192 ![0, 2] hb x (ix3 b u n) = x (ix2 b n) :=
  broadcastInDim_apply _ hb x (ix3 b u n) (ix2 b n) (fun a => match a with
    | ⟨0, _⟩ => by show b.val = if (4 : Nat) = 1 then 0 else b.val; rw [if_neg (by decide)]
    | ⟨1, _⟩ => by show n.val = if (8192 : Nat) = 1 then 0 else n.val; rw [if_neg (by decide)])

/-- The mask broadcast of the program, read at (b, 0, n). -/
theorem mask3_at [Cert.KernelIdeal.Facts] {F : FTy → Type} [FloatOps F]
    (x : (⟨Cert.KernelIdeal.S4x8192, .f32⟩ : BufTy).Contents (Elt F)) (b : Fin 4) (n : Fin 8192) :
    broadcastInDim Cert.KernelIdeal.S4x1x8192 ![0, 2] Cert.KernelIdeal.Facts₀.bcast_S4x8192_S4x1x8192_0_2 x (ix3 b (0 : Fin 1) n)
      = x (ix2 b n) :=
  mask3_at_of _ x b 0 n

/-- The final reshape, for any proof of its side condition and any element type. -/
theorem unmerge_at_of {α : Type}
    (hc : Cert.KernelIdeal.S4x12x4096x128.ShapeCasts Cert.KernelIdeal.S4x12x8192x64)
    (y : Cert.KernelIdeal.S4x12x4096x128.Idx → α) (b : Fin 4) (h : Fin 12) (n : Fin 8192) (e : Fin 64) :
    shapeCast Cert.KernelIdeal.S4x12x8192x64 y hc (ix4 b h n e)
      = y (ix4 b h (⟨n.val / 2, by omega⟩ : Fin 4096) (⟨(n.val % 2) * 64 + e.val, by omega⟩ : Fin 128)) :=
  shapeCast_apply y hc _ _ (by
    rw [Shape.rowMajor_val_four, Shape.rowMajor_val_four]
    show ((b.val * 12 + h.val) * 4096 + n.val / 2) * 128 + ((n.val % 2) * 64 + e.val)
      = ((b.val * 12 + h.val) * 8192 + n.val) * 64 + e.val
    omega)

/-- The final reshape of the program, read at (b, h, n, e). -/
theorem unmerge_at [Cert.KernelIdeal.Facts] {F : FTy → Type} [FloatOps F]
    (y : (⟨Cert.KernelIdeal.S4x12x4096x128, .f32⟩ : BufTy).Contents (Elt F)) (b : Fin 4) (h : Fin 12) (n : Fin 8192) (e : Fin 64) :
    shapeCast Cert.KernelIdeal.S4x12x8192x64 y Cert.KernelIdeal.Facts₀.shapeCasts_S4x12x4096x128_S4x12x8192x64 (ix4 b h n e)
      = y (ix4 b h (⟨n.val / 2, by omega⟩ : Fin 4096) (⟨(n.val % 2) * 64 + e.val, by omega⟩ : Fin 128)) :=
  unmerge_at_of _ y b h n e

end Cert.CosAttn.Host

end
-- ==== Proof.Pieces.lean ====
/-
  What the kernels' stores leave, read back as values: the accumulator after an even point is the tile's
  contribution added to the zero block, after an odd point the contribution added to what it held; the output
  block after an odd point is that accumulator with two unit axes in front; the second kernel's output block is
  its one product.
-/
import proofs.«145427_j10582799417399_2_alg».proof.Proof.R0Dat
import proofs.«145427_j10582799417399_2_alg».proof.Proof.R1Kernel
import Idealize.ShloMosaic.Lib.Pipeline.Value

set_option maxRecDepth 16384

noncomputable section

namespace Cert.CosAttn.Pieces

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A rectangle at offset (0, 0) starts at the origin. -/
theorem hz2 : (![0, 0] : Fin 2 → Nat) = fun _ => 0 := funext fun a => by fin_cases a <;> rfl
/-- So does one at offset (0, 0, 0). -/
theorem hz3 : (![0, 0, 0] : Fin 3 → Nat) = fun _ => 0 := funext fun a => by fin_cases a <;> rfl
/-- And one at offset (0, 0, 0, 0). -/
theorem hz4 : (![0, 0, 0, 0] : Fin 4 → Nat) = fun _ => 0 := funext fun a => by fin_cases a <;> rfl

/-- The second kernel's output block is its product of the two input blocks. -/
theorem out1_2_eq (x0 : Vec F S1x1x2048x64 .f32) (x1 : Vec F S1x1x64x64 .f32) : out1_2 x0 x1 = k1_pay1 x0 x1 := by
  unfold out1_2
  rw [View.canon_unit_zero hz4]
  simp only [View.ld_unit_zero (S := S1x1x2048x64) hz4, View.ld_unit_zero (S := S1x1x64x64) hz4]

/-- After an odd point the accumulator is the tile's contribution added to what it held. -/
theorem sout0_B_0_eq (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : ¬cond0_0 i) (hc1 : cond0_1 i)
    (x0 : Vec F S1x1x4096 .f32) (x1 x2 : Vec F S1x1x4096x64 .f32) (xs0 : Vec F S64x64 .f32) :
    sout0_B_0 c i arg3 harg3 arg4 harg4 arg5 harg5 arg6 harg6 arg7 harg7 hc0 hc1 x0 x1 x2 xs0 = k0_pay3 x1 x2 x0 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_run_names
  rw [View.canon_unit_zero hz2]
  simp only [View.readAt_eq_ld, harg3.read_unread, harg4.read_unread, harg5.read_unread, harg6.read_unread, harg7.read_unread,
    View.ld_unit_zero (S := S64x64) hz2, View.ld_unit_zero (S := S1x1x4096) hz3, View.ld_unit_zero (S := S1x1x4096x64) hz4,
    View.ld_unit_zero (S := S1x1x64x64) hz4]

/-- After an odd point the output block is that accumulator, two unit axes in front: the store's payload is
    computed from a load of the accumulator that reads back the one store before it. -/
theorem out0_B_3_eq (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : ¬cond0_0 i) (hc1 : cond0_1 i)
    (x0 : Vec F S1x1x4096 .f32) (x1 x2 : Vec F S1x1x4096x64 .f32) (xs0 : Vec F S64x64 .f32) :
    out0_B_3 c i arg3 harg3 arg4 harg4 arg5 harg5 arg6 harg6 arg7 harg7 hc0 hc1 x0 x1 x2 xs0 = k0_pay1 (k0_pay3 x1 x2 x0 xs0) := by
  unfold out0_B_3
  rw [View.read_writes_eq_canon _ _ _ (cover0_B_3 c i arg3 harg3 arg4 harg4 arg5 harg5 arg6 harg6 arg7 harg7 hc0 hc1 x0 x1 x2 xs0)]
  unfold kernelRun0_B
  dsimp only
  sl_unfold_run_names
  rw [View.canon_unit_zero (S := S1x1x64x64) hz4, View.readCov_unit_zero (S := S64x64) _ hz2]
  simp only [View.readAt_eq_ld, harg3.read_unread, harg4.read_unread, harg5.read_unread, harg6.read_unread, harg7.read_unread,
    View.ld_unit_zero (S := S64x64) hz2, View.ld_unit_zero (S := S1x1x4096) hz3, View.ld_unit_zero (S := S1x1x4096x64) hz4,
    View.ld_unit_zero (S := S1x1x64x64) hz4]

/-- After an even point the accumulator is the tile's contribution added to the zero block: the zero block is
    stored first, a load reads it back, and the second store, which covers the accumulator, is what remains. -/
theorem sout0_A_0_eq (c : Dev nD) (i : grid0.Coords) (arg3 : Memref sig .tc .vmem S1x1x4096 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x64x64 .f32) (harg6 : arg6.IsWhole) (arg7 : Memref sig .tc .vmem S64x64 .f32) (harg7 : arg7.IsWhole) (hc0 : cond0_0 i) (hc1 : ¬cond0_1 i)
    (x0 : Vec F S1x1x4096 .f32) (x1 x2 : Vec F S1x1x4096x64 .f32) :
    sout0_A_0 c i arg3 harg3 arg4 harg4 arg5 harg5 arg6 harg6 arg7 harg7 hc0 hc1 x0 x1 x2 = k0_pay3 x1 x2 x0 (k0_pay2 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_run_names
  rw [View.canon_cons_unit_zero (S := S64x64) hz2, View.readCov_unit_zero (S := S64x64) _ hz2]
  simp only [View.readAt_eq_ld, harg3.read_unread, harg4.read_unread, harg5.read_unread, harg6.read_unread, harg7.read_unread,
    View.ld_unit_zero (S := S64x64) hz2, View.ld_unit_zero (S := S1x1x4096) hz3, View.ld_unit_zero (S := S1x1x4096x64) hz4,
    View.ld_unit_zero (S := S1x1x64x64) hz4]

end Cert.CosAttn.Pieces

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payloads0.lean ====
/-
  The first kernel's arithmetic read at an index, over the extended reals. One accumulation step at (d, e) is the
  accumulator there plus the sum over the tile's 4096 positions n of
  (K[n, d] / max(|K row n|, eps) * mask[n] * scale) * (V[n, e] * mask[n]):
  the row norm is the square root of the row's sum of squares, the mask row is transposed into a column and spread
  over the 64 features, the rounding to bf16 on the way into the product is the identity here, and the product
  contracts the position axis of both operands. The reset block is zero; the copy into the output block only adds
  two unit axes in front.
-/
import proofs.«145427_j10582799417399_2_alg».proof.Proof.Spec
import proofs.«145427_j10582799417399_2_alg».proof.Proof.Gen.KernelIdeal.Skeleton
import proofs.«145427_j10582799417399_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.CosAttn.Pay

open Cert.KernelIdeal Cert.KernelIdeal.Gen Idealize.ShloMosaic Idealize.ShloMosaic.ValueIdx Cert.CosAttn Cert.Keepdims

theorem pay2_apply (i : S64x64.Idx) : k0_pay2 (F := Ideal) i = 0 := by
  unfold k0_pay2
  simp only [shapeCast_self]
  exact Ideal.ofBits_zero_f32

theorem pay1_apply (v : Vec Ideal S64x64 .f32) (d e : Fin 64) :
    k0_pay1 (F := Ideal) v (ix4 (0 : Fin 1) (0 : Fin 1) d e) = v (ix2 d e) := by
  unfold k0_pay1
  exact shapeCast_apply v _ _ _ (by
    rw [Shape.rowMajor_val_four, Shape.rowMajor_val_two]
    show d.val * 64 + e.val = ((0 * 1 + 0) * 64 + d.val) * 64 + e.val
    omega)

/-! ## The first kernel's accumulation step -/

/-- The K and V blocks `[1,1,4096,64]` re-laid as `[4096,64]`: entry `(n, d)` is entry `(0,0,n,d)`. -/
theorem cast_blk_apply (x : Vec Ideal S1x1x4096x64 .f32) (h : S1x1x4096x64.ShapeCasts S4096x64) (n : Fin 4096) (d : Fin 64) :
    shapeCast S4096x64 x h (ix2 n d) = x (ix4 (0 : Fin 1) (0 : Fin 1) n d) :=
  shapeCast_apply x h _ _ (by
    rw [Shape.rowMajor_val_four, Shape.rowMajor_val_two]
    show ((0 * 1 + 0) * 4096 + n.val) * 64 + d.val = n.val * 64 + d.val
    omega)

/-- The mask row `[1,1,4096]` re-laid as `[1,4096]` and transposed to the column `[4096,1]`: entry `(n, 0)` is entry `(0,0,n)`. -/
theorem mask_col_apply (x : Vec Ideal S1x1x4096 .f32) (h : S1x1x4096.ShapeCasts S1x4096)
    (ht : S1x4096.Transposes [1, 0] S4096x1) (n : Fin 4096) :
    transpose S4096x1 [1, 0] (shapeCast S1x4096 x h) ht (ix2 n (0 : Fin 1)) = x (ix3 (0 : Fin 1) (0 : Fin 1) n) := by
  refine (transpose_ix2_apply (shapeCast S1x4096 x h) ht n (0 : Fin 1)).trans ?_
  exact shapeCast_apply x h _ _ (by
    rw [Shape.rowMajor_val_three, Shape.rowMajor_val_two]
    show ((0 * 1 + 0) * 4096 + n.val) = 0 * 4096 + n.val
    omega)

/-- The source index over row `n` of a `[4096,64]` array with coordinate `k` on the reduced second axis is `(n, k)`. -/
theorem lift_row (h : S4096x64.Reduces [1] S4096) (n : Fin 4096) (k : Fin 64) :
    h.lift (ix1 n) k = ix2 n k :=
  funext fun c => match c with
    | ⟨0, _⟩ => Fin.ext rfl
    | ⟨1, _⟩ => Fin.ext rfl

/-- A row-wise sum over the second axis of a `[4096,64]` array, at row `n`. -/
theorem rowsum_apply (src : FVec Ideal S4096x64 .f32) (h : S4096x64.Reduces [1] S4096)
    (hφ : FKind.Formats .f32) (hacc : (0x00000000#32 : BitVec 32) = 0x00000000#32) (n : Fin 4096) :
    multiReduction .add [1] S4096 src 0x00000000#32 h hφ hacc (ix1 n) = ∑ k : Fin 64, src (ix2 n k) := by
  refine (Ideal.multiReduction_add_single src 0x00000000#32 h hφ hacc (ix1 n)).trans ?_
  exact Finset.sum_congr rfl fun k _ => congrArg src (lift_row h n k)

/-- The squared Euclidean norm of row `n` of the re-laid key block. -/
theorem sumsq_apply (x : Vec Ideal S1x1x4096x64 .f32) (h : S1x1x4096x64.ShapeCasts S4096x64) (hr : S4096x64.Reduces [1] S4096)
    (hφ : FKind.Formats .f32) (hacc : (0x00000000#32 : BitVec 32) = 0x00000000#32) (n : Fin 4096) :
    multiReduction (F := Ideal) .add [1] S4096 (mulf (F := Ideal) (φ := .f32) (shapeCast S4096x64 x h) (shapeCast S4096x64 x h)) 0x00000000#32 hr hφ hacc (ix1 n)
      = ∑ j : Fin 64, x (ix4 (0 : Fin 1) (0 : Fin 1) n j) * x (ix4 (0 : Fin 1) (0 : Fin 1) n j) := by
  refine (rowsum_apply _ hr hφ hacc n).trans ?_
  exact Finset.sum_congr rfl fun k _ => by rw [mulf_apply, cast_blk_apply]

/-- A square root taken entrywise, read at an index. -/
theorem sqrt_apply {s : Shape} {φ : FTy} (a : FVec Ideal s φ) (i : s.Idx) : sqrt a i = Ideal.sqrt (a i) := rfl

/-! The product contracts the position axis (axis 0) of both operands: at output `(d, e)` and contraction
    position `n` the left operand is read at `(n, d)` and the right operand at `(n, e)`. -/

theorem lhs_ktv_0 (i : S64x64.Idx) (q : dot_S4096x64_S4096x64_S64x64_0_0_1_1_n_n.contr.Idx) :
    (dot_S4096x64_S4096x64_S64x64_0_0_1_1_n_n.lhsIdx i q 0).val = (q ⟨0, by decide⟩).val :=
  dot_S4096x64_S4096x64_S64x64_0_0_1_1_n_n.lhsIdx_val_of_single rfl i q
theorem lhs_ktv_1 (i : S64x64.Idx) (q : dot_S4096x64_S4096x64_S64x64_0_0_1_1_n_n.contr.Idx) :
    (dot_S4096x64_S4096x64_S64x64_0_0_1_1_n_n.lhsIdx i q 1).val = (i 0).val := by
  unfold DotDims.lhsIdx
  rw [dif_neg (show ¬(1 : Fin S4096x64.rank) ∈ dot_S4096x64_S4096x64_S64x64_0_0_1_1_n_n.lhsBatch by decide), dif_pos (show (1 : Fin S4096x64.rank) ∈ dot_S4096x64_S4096x64_S64x64_0_0_1_1_n_n.lhsNonContracting by decide)]
  rfl
theorem rhs_ktv_0 (i : S64x64.Idx) (q : dot_S4096x64_S4096x64_S64x64_0_0_1_1_n_n.contr.Idx) :
    (dot_S4096x64_S4096x64_S64x64_0_0_1_1_n_n.rhsIdx i q 0).val = (q ⟨0, by decide⟩).val :=
  dot_S4096x64_S4096x64_S64x64_0_0_1_1_n_n.rhsIdx_val_of_single rfl i q
theorem rhs_ktv_1 (i : S64x64.Idx) (q : dot_S4096x64_S4096x64_S64x64_0_0_1_1_n_n.contr.Idx) :
    (dot_S4096x64_S4096x64_S64x64_0_0_1_1_n_n.rhsIdx i q 1).val = (i 1).val := by
  unfold DotDims.rhsIdx
  rw [dif_neg (show ¬(1 : Fin S4096x64.rank) ∈ dot_S4096x64_S4096x64_S64x64_0_0_1_1_n_n.rhsBatch by decide), dif_pos (show (1 : Fin S4096x64.rank) ∈ dot_S4096x64_S4096x64_S64x64_0_0_1_1_n_n.rhsNonContracting by decide)]
  rfl

theorem lidx_ktv (d e : Fin 64) (n : Fin 4096) :
    dot_S4096x64_S4096x64_S64x64_0_0_1_1_n_n.lhsIdx (ix2 d e)
        ((contrEquiv1 dot_S4096x64_S4096x64_S64x64_0_0_1_1_n_n 4096 rfl rfl).symm n) = ix2 n d :=
  funext fun a => Fin.ext (by
    have hk := contrEquiv1_symm_val dot_S4096x64_S4096x64_S64x64_0_0_1_1_n_n 4096 rfl rfl n
    match a with
    | ⟨0, _⟩ => exact (lhs_ktv_0 _ _).trans hk
    | ⟨1, _⟩ => exact lhs_ktv_1 _ _)

theorem ridx_ktv (d e : Fin 64) (n : Fin 4096) :
    dot_S4096x64_S4096x64_S64x64_0_0_1_1_n_n.rhsIdx (ix2 d e)
        ((contrEquiv1 dot_S4096x64_S4096x64_S64x64_0_0_1_1_n_n 4096 rfl rfl).symm n) = ix2 n e :=
  funext fun a => Fin.ext (by
    have hk := contrEquiv1_symm_val dot_S4096x64_S4096x64_S64x64_0_0_1_1_n_n 4096 rfl rfl n
    match a with
    | ⟨0, _⟩ => exact (rhs_ktv_0 _ _).trans hk
    | ⟨1, _⟩ => exact rhs_ktv_1 _ _)

theorem pay3_apply (xK xV : Vec Ideal S1x1x4096x64 .f32) (xM : Vec Ideal S1x1x4096 .f32) (acc : Vec Ideal S64x64 .f32) (d e : Fin 64) :
    k0_pay3 (F := Ideal) xK xV xM acc (ix2 d e)
      = acc (ix2 d e) + ∑ n : Fin 4096,
          (Ideal.div (xK (ix4 (0 : Fin 1) (0 : Fin 1) n d)) (max (Ideal.sqrt (∑ j : Fin 64, xK (ix4 (0 : Fin 1) (0 : Fin 1) n j) * xK (ix4 (0 : Fin 1) (0 : Fin 1) n j))) eps) * xM (ix3 (0 : Fin 1) (0 : Fin 1) n) * scale)
            * (xV (ix4 (0 : Fin 1) (0 : Fin 1) n e) * xM (ix3 (0 : Fin 1) (0 : Fin 1) n)) := by
  unfold k0_pay3
  simp only [shapeCast_self]
  rw [addf_apply]
  refine congrArg (acc (ix2 d e) + ·) ?_
  simp only [matmul]
  rw [Ideal.matmul_constant_zero_apply, ← Equiv.sum_comp (contrEquiv1 dot_S4096x64_S4096x64_S64x64_0_0_1_1_n_n 4096 rfl rfl).symm]
  refine Finset.sum_congr rfl fun n _ => ?_
  rw [lidx_ktv, ridx_ktv]
  simp only [truncf_apply, mulf_apply, divf_apply, maximumf_apply, broadcast_apply, sqrt_apply,
    broadcastTo_a1_ab_apply, shapeCast_a_a1_apply]
  rw [cast_blk_apply xK, cast_blk_apply xV, sumsq_apply, mask_col_apply]
  rfl

end Cert.CosAttn.Pay

end
-- ==== Proof.Arr0.lean ====
/-
  The first kernel's region, from the blocks its points write to the whole K^T V array. Point t = (12 b + h) * 2 + s
  reads the keys and values of positions 4096 s .. 4096 s + 4095 of (b, h) and the mask of batch entry b at the same
  positions. The output block (b, h) is written back at the odd point only, where the accumulator holds zero plus
  the first tile's product plus the second's: the sum over all 8192 positions. The blocks tile the [4, 12, 64, 64]
  array, which therefore ends holding K^T V of the key array, the value array and the mask row.
-/
import proofs.«145427_j10582799417399_2_alg».proof.Proof.Pieces
import proofs.«145427_j10582799417399_2_alg».proof.Proof.SpecK
import proofs.«145427_j10582799417399_2_alg».proof.Proof.Payloads0
import proofs.«145427_j10582799417399_2_alg».proof.Proof.Gen.KernelIdeal.Points
import Idealize.ShloMosaic.Lib.Pipeline.Value
import Idealize.ShloMosaic.Lib.ValueIdx

set_option maxRecDepth 16384

noncomputable section

open scoped BigOperators

namespace Cert.CosAttn.Arr0

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)
open Cert.CosAttn Cert.CosAttn.Pay Cert.CosAttn.Pieces

/-- The printed index maps as closed forms of the point's position `t = (b * 12 + h) * 2 + s`: the mask window
    moves with `(b, s)`, the key and value windows with `(b, h, s)`, the output window with `(b, h)`. -/
theorem idx_facts : ∀ t : Fin cfg0.N,
    win0_0.index t (0 : Fin 3) = t.val / 24 ∧ win0_0.index t (1 : Fin 3) = 0 ∧ win0_0.index t (2 : Fin 3) = t.val % 2
    ∧ win0_1.index t (0 : Fin 4) = t.val / 24 ∧ win0_1.index t (1 : Fin 4) = (t.val / 2) % 12 ∧ win0_1.index t (2 : Fin 4) = t.val % 2 ∧ win0_1.index t (3 : Fin 4) = 0
    ∧ win0_2.index t (0 : Fin 4) = t.val / 24 ∧ win0_2.index t (1 : Fin 4) = (t.val / 2) % 12 ∧ win0_2.index t (2 : Fin 4) = t.val % 2 ∧ win0_2.index t (3 : Fin 4) = 0
    ∧ win0_3.index t (0 : Fin 4) = t.val / 24 ∧ win0_3.index t (1 : Fin 4) = (t.val / 2) % 12 ∧ win0_3.index t (2 : Fin 4) = 0 ∧ win0_3.index t (3 : Fin 4) = 0 :=
  (by decide +kernel : ∀ t : Fin grid0.N, _)

variable (V : (c : Dev nD) → (b : Ref sig .tc) → Buf (Elt Ideal) ((c : Thread nD τ).loc b))

/-- The key, value and mask windows' blocks at point `t`, as vectors of their literal shapes. -/
abbrev kblk (c : Dev nD) (t : Fin cfg0.N) : Vec Ideal S1x1x4096x64 .f32 := iblk0 V c 1 t
abbrev vblk (c : Dev nD) (t : Fin cfg0.N) : Vec Ideal S1x1x4096x64 .f32 := iblk0 V c 2 t
abbrev mblk (c : Dev nD) (t : Fin cfg0.N) : Vec Ideal S1x1x4096 .f32 := iblk0 V c 0 t

/-- The key, value and mask arrays as the region finds them. -/
abbrev arrK (c : Dev nD) : Arr4 := V c main_arg1
abbrev arrV (c : Dev nD) : Arr4 := V c main_arg2
abbrev arrM (c : Dev nD) : Mask3 := V c main_v0

/-- The key window's block at point `t` holds rows `4096 s … 4096 s + 4095` of head `(b, h)` of the key array. -/
theorem iblk_K_apply (c : Dev nD) (t : Fin cfg0.N) (n : Fin 4096) (d : Fin 64) (i : S4x12x8192x64.Idx)
    (h0 : (i 0).val = t.val / 24) (h1 : (i 1).val = (t.val / 2) % 12) (h2 : (i 2).val = 4096 * (t.val % 2) + n.val) (h3 : (i 3).val = d.val) :
    kblk V c t (ix4 (0 : Fin 1) (0 : Fin 1) n d) = arrK V c i := by
  obtain ⟨-, -, -, e0, e1, e2, e3, -⟩ := idx_facts t
  unfold kblk iblk0
  rw [View.read_apply]
  show V c main_arg1 _ = V c main_arg1 _
  refine congrArg _ (funext fun a => Fin.ext ?_)
  match a with
  | ⟨0, _⟩ => show win0_1.index t (0 : Fin 4) * 1 + 1 * 0 = (i 0).val; omega
  | ⟨1, _⟩ => show win0_1.index t (1 : Fin 4) * 1 + 1 * 0 = (i 1).val; omega
  | ⟨2, _⟩ => show win0_1.index t (2 : Fin 4) * 4096 + 1 * n.val = (i 2).val; omega
  | ⟨3, _⟩ => show win0_1.index t (3 : Fin 4) * 64 + 1 * d.val = (i 3).val; omega

/-- The value window's block at point `t`: the same rows of the value array. -/
theorem iblk_V_apply (c : Dev nD) (t : Fin cfg0.N) (n : Fin 4096) (d : Fin 64) (i : S4x12x8192x64.Idx)
    (h0 : (i 0).val = t.val / 24) (h1 : (i 1).val = (t.val / 2) % 12) (h2 : (i 2).val = 4096 * (t.val % 2) + n.val) (h3 : (i 3).val = d.val) :
    vblk V c t (ix4 (0 : Fin 1) (0 : Fin 1) n d) = arrV V c i := by
  obtain ⟨-, -, -, -, -, -, -, e0, e1, e2, e3, -⟩ := idx_facts t
  unfold vblk iblk0
  rw [View.read_apply]
  show V c main_arg2 _ = V c main_arg2 _
  refine congrArg _ (funext fun a => Fin.ext ?_)
  match a with
  | ⟨0, _⟩ => show win0_2.index t (0 : Fin 4) * 1 + 1 * 0 = (i 0).val; omega
  | ⟨1, _⟩ => show win0_2.index t (1 : Fin 4) * 1 + 1 * 0 = (i 1).val; omega
  | ⟨2, _⟩ => show win0_2.index t (2 : Fin 4) * 4096 + 1 * n.val = (i 2).val; omega
  | ⟨3, _⟩ => show win0_2.index t (3 : Fin 4) * 64 + 1 * d.val = (i 3).val; omega

/-- The mask window's block at point `t` holds positions `4096 s … 4096 s + 4095` of row `b` of the mask. -/
theorem iblk_M_apply (c : Dev nD) (t : Fin cfg0.N) (n : Fin 4096) (i : S4x1x8192.Idx)
    (h0 : (i 0).val = t.val / 24) (h1 : (i 1).val = 0) (h2 : (i 2).val = 4096 * (t.val % 2) + n.val) :
    mblk V c t (ix3 (0 : Fin 1) (0 : Fin 1) n) = arrM V c i := by
  obtain ⟨e0, e1, e2, -⟩ := idx_facts t
  unfold mblk iblk0
  rw [View.read_apply]
  show V c main_v0 _ = V c main_v0 _
  refine congrArg _ (funext fun a => Fin.ext ?_)
  match a with
  | ⟨0, _⟩ => show win0_0.index t (0 : Fin 3) * 1 + 1 * 0 = (i 0).val; omega
  | ⟨1, _⟩ => show win0_0.index t (1 : Fin 3) * 1 + 1 * 0 = (i 1).val; omega
  | ⟨2, _⟩ => show win0_0.index t (2 : Fin 3) * 4096 + 1 * n.val = (i 2).val; omega

/-- One term of a tile's contribution, read off the blocks of point `t`, is the specification's term at the
    position `m = 4096 s + n` of head `(b, h)`. -/
theorem tile_term (c : Dev nD) (t : Fin cfg0.N) (b : Fin 4) (h : Fin 12) (hb : b.val = t.val / 24) (hh : h.val = (t.val / 2) % 12)
    (n : Fin 4096) (m : Fin 8192) (hm : m.val = 4096 * (t.val % 2) + n.val) (d e : Fin 64) :
    (Ideal.div (kblk V c t (ix4 (0 : Fin 1) (0 : Fin 1) n d))
          (max (Ideal.sqrt (∑ j : Fin 64, kblk V c t (ix4 (0 : Fin 1) (0 : Fin 1) n j)
              * kblk V c t (ix4 (0 : Fin 1) (0 : Fin 1) n j))) eps)
        * mblk V c t (ix3 (0 : Fin 1) (0 : Fin 1) n) * scale)
      * (vblk V c t (ix4 (0 : Fin 1) (0 : Fin 1) n e)
        * mblk V c t (ix3 (0 : Fin 1) (0 : Fin 1) n))
      = kf (arrK V c) (mask2 (arrM V c)) b h m d * vm (arrV V c) (mask2 (arrM V c)) b h m e := by
  unfold kf vm rowNorm
  rw [mask2_apply]
  rw [iblk_K_apply V c t n d (ix4 b h m d) hb hh hm rfl, iblk_V_apply V c t n e (ix4 b h m e) hb hh hm rfl,
    iblk_M_apply V c t n (ix3 b (0 : Fin 1) m) hb rfl hm]
  have hs : (∑ j : Fin 64, kblk V c t (ix4 (0 : Fin 1) (0 : Fin 1) n j)
              * kblk V c t (ix4 (0 : Fin 1) (0 : Fin 1) n j))
      = ∑ j : Fin 64, arrK V c (ix4 b h m j) * arrK V c (ix4 b h m j) :=
    Finset.sum_congr rfl fun j _ => by rw [iblk_K_apply V c t n j (ix4 b h m j) hb hh hm rfl]
  rw [hs]

/-- WHAT AN ODD POINT LEAVES in the output block: at `(0, 0, d, e)`, the whole sum over the 8192 positions for the
    head `(b, h)` of the point — the even point before it started from zero and added the first 4096 positions,
    the odd point added the last 4096. -/
theorem after_odd_apply (c : Dev nD) (t : Fin cfg0.N) (h1 : t.val % 2 = 1) (b : Fin 4) (h : Fin 12)
    (hb : b.val = t.val / 24) (hh : h.val = (t.val / 2) % 12) (d e : Fin 64) :
    ((dat0 (F := Ideal) V c).after 3 t : Vec Ideal S1x1x64x64 .f32) (ix4 (0 : Fin 1) (0 : Fin 1) d e)
      = ktv (arrK V c) (arrV V c) (mask2 (arrM V c)) b h d e := by
  have hN : cfg0.N = 96 := N_0
  have htl := t.isLt
  have hlt : t.val - 1 < cfg0.N := by omega
  have h0' : (⟨t.val - 1, hlt⟩ : Fin cfg0.N).val % 2 = 0 := by show (t.val - 1) % 2 = 0; omega
  have e1 : (outsAt0 V c (t.val - 1) hlt).2 = accEven V c ⟨t.val - 1, hlt⟩ h0' :=
    congrArg Prod.snd (outsAt0_A V c ⟨t.val - 1, hlt⟩ h0')
  rw [after0_3, outsAt0_B V c t h1]
  dsimp only
  rw [e1]
  unfold outOdd accEven
  rw [out0_B_3_eq, sout0_A_0_eq]
  refine (pay1_apply _ d e).trans ?_
  refine (pay3_apply _ _ _ _ d e).trans ?_
  refine Eq.trans ?_ (ktv_two_tiles (arrK V c) (arrV V c) (mask2 (arrM V c)) b h d e)
  refine congrArg₂ (· + ·) ?_ (Finset.sum_congr rfl fun n _ =>
    tile_term V c t b h hb hh n ⟨4096 + n.val, by omega⟩ (by show 4096 + n.val = 4096 * (t.val % 2) + n.val; omega) d e)
  refine (pay3_apply _ _ _ _ d e).trans ?_
  rw [pay2_apply]
  refine congrArg₂ (· + ·) rfl (Finset.sum_congr rfl fun n _ =>
    tile_term V c ⟨t.val - 1, hlt⟩ b h (by show b.val = (t.val - 1) / 24; omega) (by show h.val = ((t.val - 1) / 2) % 12; omega)
      n ⟨n.val, by omega⟩ (by show n.val = 4096 * ((t.val - 1) % 2) + n.val; omega) d e)

/-- The same at any index of the block and any index of the array with the head's coordinates in front. -/
theorem after_odd_at (c : Dev nD) (t : Fin cfg0.N) (h1 : t.val % 2 = 1) (y : S1x1x64x64.Idx) (i : S4x12x64x64.Idx)
    (h0 : (i 0).val = t.val / 24) (h1' : (i 1).val = (t.val / 2) % 12) (h2 : (i 2).val = (y 2).val) (h3 : (i 3).val = (y 3).val) :
    ((dat0 (F := Ideal) V c).after 3 t : Vec Ideal S1x1x64x64 .f32) y
      = ktvArr (arrK V c) (arrV V c) (mask2 (arrM V c)) i := by
  have hN : cfg0.N = 96 := N_0
  have htl := t.isLt
  have hy2 : (y 2).val < 64 := (y 2).isLt
  have hy3 : (y 3).val < 64 := (y 3).isLt
  have ey : y = ix4 (0 : Fin 1) (0 : Fin 1) (⟨(y 2).val, hy2⟩ : Fin 64) (⟨(y 3).val, hy3⟩ : Fin 64) :=
    funext fun a => match a with
      | ⟨0, _⟩ => Fin.ext (by have : (y 0).val < 1 := (y 0).isLt; show (y 0).val = 0; omega)
      | ⟨1, _⟩ => Fin.ext (by have : (y 1).val < 1 := (y 1).isLt; show (y 1).val = 0; omega)
      | ⟨2, _⟩ => rfl
      | ⟨3, _⟩ => rfl
  have ei : i = ix4 (⟨t.val / 24, by omega⟩ : Fin 4) (⟨(t.val / 2) % 12, by omega⟩ : Fin 12) (⟨(y 2).val, hy2⟩ : Fin 64) (⟨(y 3).val, hy3⟩ : Fin 64) :=
    funext fun a => match a with
      | ⟨0, _⟩ => Fin.ext h0
      | ⟨1, _⟩ => Fin.ext h1'
      | ⟨2, _⟩ => Fin.ext h2
      | ⟨3, _⟩ => Fin.ext h3
  rw [ey, ei]
  exact after_odd_apply V c t h1 _ _ rfl rfl _ _

/-- WHAT POINT `t` WRITES BACK (an odd point) is block `t` of the K^T V array of the specification. -/
theorem flushed_eq (c : Dev nD) (t : Fin cfg0.N) (hf : (cfg0.win 3).flush t = true) :
    (dat0 (F := Ideal) V c).flushed 3 t
      = ((cfg0.win 3).blk t).view.read (Elt Ideal) (ktvArr (arrK V c) (arrV V c) (mask2 (arrM V c))) := by
  have h1 : t.val % 2 = 1 := (flush0_3 t).mp hf
  obtain ⟨-, -, -, -, -, -, -, -, -, -, -, e0, e1, e2, e3⟩ := idx_facts t
  show (cfg0.win 3).cut (grid0.coords t) ((dat0 (F := Ideal) V c).after 3 t) = _
  funext j
  rw [View.read_apply]
  refine after_odd_at V c t h1 j (((cfg0.win 3).blk t).view.emb j) ?_ ?_ ?_ ?_
  · show win0_3.index t (0 : Fin 4) * 1 + 1 * (j 0).val = t.val / 24
    have : (j 0).val < 1 := (j 0).isLt
    omega
  · show win0_3.index t (1 : Fin 4) * 1 + 1 * (j 1).val = (t.val / 2) % 12
    have : (j 1).val < 1 := (j 1).isLt
    omega
  · show win0_3.index t (2 : Fin 4) * 64 + 1 * (j 2).val = (j 2).val
    omega
  · show win0_3.index t (3 : Fin 4) * 64 + 1 * (j 3).val = (j 3).val
    omega

/-- An index of the array is in point `t`'s block iff each coordinate is in the block's range on its axis. -/
theorem mem_blk (t : Fin cfg0.N) (i : S4x12x64x64.Idx) :
    i ∈ ((cfg0.win 3).blk t).view.set ↔ ∀ a : Fin 4, win0_3.index t a * S1x1x64x64.size a ≤ (i a).val ∧ (i a).val < win0_3.index t a * S1x1x64x64.size a + S1x1x64x64.size a := by
  show i ∈ ((View.whole main_v1).slice (win0_3.rect t)).set ↔ _
  rw [View.set_slice_whole, Rect.mem_set_unit]
  exact Iff.rfl

/-- Every index `(b, h, d, e)` of the array is in the block of the odd point `2 (12 b + h) + 1`. -/
theorem cover (i : S4x12x64x64.Idx) : ∃ t : Fin cfg0.N, (cfg0.win 3).flush t = true ∧ i ∈ ((cfg0.win 3).blk t).view.set := by
  have hN : cfg0.N = 96 := N_0
  have hi0 : (i 0).val < 4 := (i 0).isLt
  have hi1 : (i 1).val < 12 := (i 1).isLt
  have hi2 : (i 2).val < 64 := (i 2).isLt
  have hi3 : (i 3).val < 64 := (i 3).isLt
  obtain ⟨t, ht⟩ : ∃ t : Fin cfg0.N, t.val = 2 * (12 * (i 0).val + (i 1).val) + 1 := ⟨⟨2 * (12 * (i 0).val + (i 1).val) + 1, by omega⟩, rfl⟩
  obtain ⟨-, -, -, -, -, -, -, -, -, -, -, e0, e1, e2, e3⟩ := idx_facts t
  refine ⟨t, (flush0_3 t).mpr (by omega), ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 64 ≤ (i 2).val ∧ (i 2).val < win0_3.index t (2 : Fin 4) * 64 + 64; omega
  | ⟨3, _⟩ => show win0_3.index t (3 : Fin 4) * 64 ≤ (i 3).val ∧ (i 3).val < win0_3.index t (3 : Fin 4) * 64 + 64; omega

/-- THE ARRAY after the first region: the K^T V array of the specification, of the key, value and mask arrays the
    region is entered with. -/
theorem final0 (c : Dev nD) :
    (dat0 (F := Ideal) V c).arrAt 3 cfg0.N = Cert.CosAttn.ktvArr (V c main_arg1) (V c main_arg2) (Cert.CosAttn.mask2 (V c main_v0)) :=
  (dat0 (F := Ideal) V c).arrAt_eq_of_cover 3 _ (fun t hf => flushed_eq V c t hf) cover

end Cert.CosAttn.Arr0

end
-- ==== Proof.Payloads1.lean ====
/-
  The second kernel's arithmetic read at an index, over the extended reals. Row r, lane c of the output block is the
  sum over d of (Q[p, d] / max(|Q row p|, eps) * scale) * T[d, c % 64] with p = 2 r + c / 64: the queries are
  normalised row by row, multiplied by the 64 x 64 block T (the roundings to bf16 are the identity here), and the
  [2048, 64] product is re-laid row-major as [1024, 128], two positions per row.
-/
import proofs.«145427_j10582799417399_2_alg».proof.Proof.Spec
import proofs.«145427_j10582799417399_2_alg».proof.Proof.Gen.KernelIdeal.Skeleton
import proofs.«145427_j10582799417399_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.CosAttn.Pay

open Cert.KernelIdeal Cert.KernelIdeal.Gen Idealize.ShloMosaic Idealize.ShloMosaic.ValueIdx Cert.CosAttn Cert.Keepdims

/-! ## The second kernel: normalised queries times the K^T V block, two product rows per stored row -/

/-- The Q block `[1,1,2048,64]` re-laid as `[2048,64]`: entry `(n, d)` is entry `(0,0,n,d)`. -/
theorem cast_q_apply (x : Vec Ideal S1x1x2048x64 .f32) (h : S1x1x2048x64.ShapeCasts S2048x64) (n : Fin 2048) (d : Fin 64) :
    shapeCast S2048x64 x h (ix2 n d) = x (ix4 (0 : Fin 1) (0 : Fin 1) n d) :=
  shapeCast_apply x h _ _ (by
    rw [Shape.rowMajor_val_four, Shape.rowMajor_val_two]
    show ((0 * 1 + 0) * 2048 + n.val) * 64 + d.val = n.val * 64 + d.val
    omega)

/-- The K^T V block `[1,1,64,64]` re-laid as `[64,64]`: entry `(d, e)` is entry `(0,0,d,e)`. -/
theorem cast_t_apply (x : Vec Ideal S1x1x64x64 .f32) (h : S1x1x64x64.ShapeCasts S64x64) (d e : Fin 64) :
    shapeCast S64x64 x h (ix2 d e) = x (ix4 (0 : Fin 1) (0 : Fin 1) d e) :=
  shapeCast_apply x h _ _ (by
    rw [Shape.rowMajor_val_four, Shape.rowMajor_val_two]
    show ((0 * 1 + 0) * 64 + d.val) * 64 + e.val = d.val * 64 + e.val
    omega)

/-- The source index over row `n` of a `[2048,64]` array with coordinate `k` on the reduced second axis is `(n, k)`. -/
theorem lift_row_q (h : S2048x64.Reduces [1] S2048) (n : Fin 2048) (k : Fin 64) :
    h.lift (ix1 n) k = ix2 n k :=
  funext fun c => match c with
    | ⟨0, _⟩ => Fin.ext rfl
    | ⟨1, _⟩ => Fin.ext rfl

/-- A row-wise sum over the second axis of a `[2048,64]` array, at row `n`. -/
theorem rowsum_q_apply (src : FVec Ideal S2048x64 .f32) (h : S2048x64.Reduces [1] S2048)
    (hφ : FKind.Formats .f32) (hacc : (0x00000000#32 : BitVec 32) = 0x00000000#32) (n : Fin 2048) :
    multiReduction .add [1] S2048 src 0x00000000#32 h hφ hacc (ix1 n) = ∑ k : Fin 64, src (ix2 n k) := by
  refine (Ideal.multiReduction_add_single src 0x00000000#32 h hφ hacc (ix1 n)).trans ?_
  exact Finset.sum_congr rfl fun k _ => congrArg src (lift_row_q h n k)

/-- The squared Euclidean norm of row `n` of the re-laid query block. -/
theorem sumsq_q_apply (x : Vec Ideal S1x1x2048x64 .f32) (h : S1x1x2048x64.ShapeCasts S2048x64) (hr : S2048x64.Reduces [1] S2048)
    (hφ : FKind.Formats .f32) (hacc : (0x00000000#32 : BitVec 32) = 0x00000000#32) (n : Fin 2048) :
    multiReduction (F := Ideal) .add [1] S2048 (mulf (F := Ideal) (φ := .f32) (shapeCast S2048x64 x h) (shapeCast S2048x64 x h)) 0x00000000#32 hr hφ hacc (ix1 n)
      = ∑ j : Fin 64, x (ix4 (0 : Fin 1) (0 : Fin 1) n j) * x (ix4 (0 : Fin 1) (0 : Fin 1) n j) := by
  refine (rowsum_q_apply _ hr hφ hacc n).trans ?_
  exact Finset.sum_congr rfl fun k _ => by rw [mulf_apply, cast_q_apply]

/-- A square root taken entrywise, read at an index. -/
theorem sqrt_q_apply {s : Shape} {φ : FTy} (a : FVec Ideal s φ) (i : s.Idx) : sqrt a i = Ideal.sqrt (a i) := rfl

/-! The product contracts the feature axis: axis 1 of the left operand with axis 0 of the right one. At output
    `(n, e)` and contraction position `d` the left operand is read at `(n, d)` and the right operand at `(d, e)`. -/

theorem lhs_out_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhs_out_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
theorem rhs_out_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
theorem rhs_out_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

theorem lidx_out (n : Fin 2048) (e d : Fin 64) :
    dot_S2048x64_S64x64_S2048x64_1_0_0_1_n_n.lhsIdx (ix2 n e) ((contrEquiv1 dot_S2048x64_S64x64_S2048x64_1_0_0_1_n_n 64 rfl rfl).symm d) = ix2 n d :=
  funext fun a => Fin.ext (by
    have hk := contrEquiv1_symm_val dot_S2048x64_S64x64_S2048x64_1_0_0_1_n_n 64 rfl rfl d
    match a with
    | ⟨0, _⟩ => exact lhs_out_0 _ _
    | ⟨1, _⟩ => exact (lhs_out_1 _ _).trans hk)

theorem ridx_out (n : Fin 2048) (e d : Fin 64) :
    dot_S2048x64_S64x64_S2048x64_1_0_0_1_n_n.rhsIdx (ix2 n e) ((contrEquiv1 dot_S2048x64_S64x64_S2048x64_1_0_0_1_n_n 64 rfl rfl).symm d) = ix2 d e :=
  funext fun a => Fin.ext (by
    have hk := contrEquiv1_symm_val dot_S2048x64_S64x64_S2048x64_1_0_0_1_n_n 64 rfl rfl d
    match a with
    | ⟨0, _⟩ => exact (rhs_out_0 _ _).trans hk
    | ⟨1, _⟩ => exact rhs_out_1 _ _)

/-- A `[2048,64]` array re-laid row-major as `[1024,128]` and then as `[1,1,1024,128]`: row `r`, lane `c` of the
    result is row `2r + c / 64`, column `c % 64` of the operand (both have row-major position `128 r + c`). -/
theorem relay_apply (y : FVec Ideal S2048x64 .f32) (h1 : S2048x64.ShapeCasts S1024x128) (h2 : S1024x128.ShapeCasts S1x1x1024x128)
    (r : Fin 1024) (c : Fin 128) :
    shapeCast S1x1x1024x128 (shapeCast S1024x128 y h1) h2 (ix4 (0 : Fin 1) (0 : Fin 1) r c)
      = y (ix2 (⟨2 * r.val + c.val / 64, by omega⟩ : Fin 2048) (⟨c.val % 64, by omega⟩ : Fin 64)) := by
  refine (shapeCast_apply (shapeCast S1024x128 y h1) h2 _ (ix2 r c) (by
    rw [Shape.rowMajor_val_four, Shape.rowMajor_val_two]
    show r.val * 128 + c.val = ((0 * 1 + 0) * 1024 + r.val) * 128 + c.val
    omega)).trans ?_
  exact shapeCast_apply y h1 _ _ (by
    rw [Shape.rowMajor_val_two, Shape.rowMajor_val_two]
    show (2 * r.val + c.val / 64) * 64 + c.val % 64 = r.val * 128 + c.val
    omega)

theorem pay1k1_apply (xQ : Vec Ideal S1x1x2048x64 .f32) (xT : Vec Ideal S1x1x64x64 .f32) (r : Fin 1024) (c : Fin 128) :
    k1_pay1 (F := Ideal) xQ xT (ix4 (0 : Fin 1) (0 : Fin 1) r c)
      = ∑ d : Fin 64,
          (Ideal.div (xQ (ix4 (0 : Fin 1) (0 : Fin 1) (⟨2 * r.val + c.val / 64, by omega⟩ : Fin 2048) d)) (max (Ideal.sqrt (∑ j : Fin 64, xQ (ix4 (0 : Fin 1) (0 : Fin 1) (⟨2 * r.val + c.val / 64, by omega⟩ : Fin 2048) j) * xQ (ix4 (0 : Fin 1) (0 : Fin 1) (⟨2 * r.val + c.val / 64, by omega⟩ : Fin 2048) j))) eps) * scale)
            * xT (ix4 (0 : Fin 1) (0 : Fin 1) d (⟨c.val % 64, by omega⟩ : Fin 64)) := by
  unfold k1_pay1
  refine (relay_apply _ _ _ r c).trans ?_
  simp only [matmul]
  rw [Ideal.matmul_constant_zero_apply, ← Equiv.sum_comp (contrEquiv1 dot_S2048x64_S64x64_S2048x64_1_0_0_1_n_n 64 rfl rfl).symm]
  refine Finset.sum_congr rfl fun d _ => ?_
  rw [lidx_out, ridx_out]
  simp only [truncf_apply, mulf_apply, divf_apply, maximumf_apply, broadcast_apply, sqrt_q_apply,
    broadcastTo_a1_ab_apply, shapeCast_a_a1_apply]
  rw [cast_q_apply xQ, cast_t_apply xT, sumsq_q_apply]
  rfl

end Cert.CosAttn.Pay

end
-- ==== Proof.Arr1.lean ====
/-
  The second kernel's region, from the blocks its points write to the whole packed output array: at point
  t = (12 b + h) * 4 + s the body leaves, in output block (b, h, s), the normalised queries of positions
  2048 s .. 2048 s + 2047 times the K^T V block of (b, h), two positions per 128-wide row; the blocks tile the
  [4, 12, 4096, 128] array, which therefore ends holding the packed attention output of the query array and
  the K^T V array.
-/
import proofs.«145427_j10582799417399_2_alg».proof.Proof.R1Dat
import proofs.«145427_j10582799417399_2_alg».proof.Proof.Pieces
import proofs.«145427_j10582799417399_2_alg».proof.Proof.Payloads1
import proofs.«145427_j10582799417399_2_alg».proof.Proof.SpecK
import Idealize.ShloMosaic.Lib.Pipeline.Value

set_option maxRecDepth 16384

noncomputable section

open scoped BigOperators

namespace Cert.CosAttn.Arr1

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The three windows' block indices at point t, in closed form: t = (12 b + h) * 4 + s. -/
theorem idx_facts : ∀ t : Fin cfg1.N,
    win1_0.index t (0 : Fin 4) = t.val / 48 ∧ win1_0.index t (1 : Fin 4) = t.val / 4 % 12
    ∧ win1_0.index t (2 : Fin 4) = t.val % 4 ∧ win1_0.index t (3 : Fin 4) = 0
    ∧ win1_1.index t (0 : Fin 4) = t.val / 48 ∧ win1_1.index t (1 : Fin 4) = t.val / 4 % 12
    ∧ win1_1.index t (2 : Fin 4) = 0 ∧ win1_1.index t (3 : Fin 4) = 0
    ∧ win1_2.index t (0 : Fin 4) = t.val / 48 ∧ win1_2.index t (1 : Fin 4) = t.val / 4 % 12
    ∧ win1_2.index t (2 : Fin 4) = t.val % 4 ∧ win1_2.index t (3 : Fin 4) = 0 :=
  (by decide +kernel : ∀ t : Fin grid1.N, _)

/-- ONE POINT'S BLOCK. If the query block holds positions 2048 s .. 2048 s + 2047 of pair (b, h) and the K^T V
    block is that pair's, then row r, lane c of what the body stores is the packed output at row 1024 s + r,
    lane c: both are the normalised query of position 2048 s + 2 r + c / 64 against column c % 64. -/
theorem point_eq (Q : Arr4) (T : ArrKtV) (xQ : Vec Ideal S1x1x2048x64 .f32) (xT : Vec Ideal S1x1x64x64 .f32)
    (b : Fin 4) (h : Fin 12) (s : Fin 4)
    (hQ : ∀ (n : Fin 2048) (d : Fin 64),
      xQ (ix4 (0 : Fin 1) (0 : Fin 1) n d) = Q (ix4 b h (⟨2048 * s.val + n.val, by omega⟩ : Fin 8192) d))
    (hT : ∀ d e : Fin 64, xT (ix4 (0 : Fin 1) (0 : Fin 1) d e) = T (ix4 b h d e))
    (r : Fin 1024) (cc : Fin 128) :
    k1_pay1 (F := Ideal) xQ xT (ix4 (0 : Fin 1) (0 : Fin 1) r cc)
      = outPacked Q T (ix4 b h (⟨1024 * s.val + r.val, by omega⟩ : Fin 4096) cc) := by
  have hn : (⟨2048 * s.val + (2 * r.val + cc.val / 64), by omega⟩ : Fin 8192)
      = ⟨2 * (1024 * s.val + r.val) + cc.val / 64, by omega⟩ :=
    Fin.ext (by show 2048 * s.val + (2 * r.val + cc.val / 64) = 2 * (1024 * s.val + r.val) + cc.val / 64; omega)
  have e1 : ∀ d : Fin 64, xQ (ix4 (0 : Fin 1) (0 : Fin 1) (⟨2 * r.val + cc.val / 64, by omega⟩ : Fin 2048) d)
      = Q (ix4 b h (⟨2 * (1024 * s.val + r.val) + cc.val / 64, by omega⟩ : Fin 8192) d) := fun d =>
    (hQ _ d).trans (congrArg (fun N : Fin 8192 => Q (ix4 b h N d)) hn)
  rw [Pay.pay1k1_apply]
  simp only [e1, hT]
  rfl

variable (V : (c : Dev nD) → (b : Ref sig .tc) → Buf (Elt Ideal) ((c : Thread nD τ).loc b))

/-- The array the region leaves: the packed output of the query array and the K^T V array it found. -/
abbrev G (c : Dev nD) : Buf (Elt Ideal) ((c : Thread nD τ).loc main_v2) :=
  Cert.CosAttn.outPacked (V c main_arg0) (V c main_v1)

/-- What point t writes back is block t of that array. -/
theorem flushed_eq (c : Dev nD) (t : Fin cfg1.N) :
    (dat1 (F := Ideal) V c).flushed 2 t = ((cfg1.win 2).blk t).view.read (Elt Ideal) (G V c) := by
  show (cfg1.win 2).cut (grid1.coords t) ((dat1 (F := Ideal) V c).after 2 t) = _
  rw [after1_2, Pieces.out1_2_eq]
  obtain ⟨e0, e1, e2, e3, e4, e5, e6, e7, e8, e9, e10, e11⟩ := idx_facts t
  have hN : cfg1.N = 192 := N_1
  have ht : t.val < 192 := by have := t.isLt; omega
  funext y
  obtain ⟨u0, u1, r, cc, rfl⟩ : ∃ (u0 : Fin 1) (u1 : Fin 1) (r : Fin 1024) (cc : Fin 128), y = ix4 u0 u1 r cc :=
    ⟨y 0, y 1, y 2, y 3, eq_ix4 y⟩
  obtain rfl : u0 = 0 := Subsingleton.elim _ _
  obtain rfl : u1 = 0 := Subsingleton.elim _ _
  show k1_pay1 (F := Ideal) (iblk1 V c 0 t) (iblk1 V c 1 t) (ix4 (0 : Fin 1) (0 : Fin 1) r cc)
    = G V c (((cfg1.win 2).blk t).view.emb (ix4 (0 : Fin 1) (0 : Fin 1) r cc))
  have hemb : ((cfg1.win 2).blk t).view.emb (ix4 (0 : Fin 1) (0 : Fin 1) r cc)
      = ix4 (⟨t.val / 48, by omega⟩ : Fin 4) (⟨t.val / 4 % 12, by omega⟩ : Fin 12)
          (⟨1024 * (⟨t.val % 4, by omega⟩ : Fin 4).val + r.val, by omega⟩ : Fin 4096) cc := by
    funext a; apply Fin.ext
    match a with
    | ⟨0, _⟩ => show win1_2.index t (0 : Fin 4) * 1 + 1 * 0 = t.val / 48; omega
    | ⟨1, _⟩ => show win1_2.index t (1 : Fin 4) * 1 + 1 * 0 = t.val / 4 % 12; omega
    | ⟨2, _⟩ => show win1_2.index t (2 : Fin 4) * 1024 + 1 * r.val = 1024 * (t.val % 4) + r.val; omega
    | ⟨3, _⟩ => show win1_2.index t (3 : Fin 4) * 128 + 1 * cc.val = cc.val; omega
  refine Eq.trans ?_ (congrArg (G V c) hemb).symm
  refine point_eq (V c main_arg0) (V c main_v1) (iblk1 V c 0 t) (iblk1 V c 1 t)
    (⟨t.val / 48, by omega⟩ : Fin 4) (⟨t.val / 4 % 12, by omega⟩ : Fin 12) (⟨t.val % 4, by omega⟩ : Fin 4) ?_ ?_ r cc
  · intro n d
    show V c main_arg0 (((cfg1.win 0).blk t).view.emb (ix4 (0 : Fin 1) (0 : Fin 1) n d)) = V c main_arg0 _
    refine congrArg (V c main_arg0) (funext fun a => Fin.ext ?_)
    match a with
    | ⟨0, _⟩ => show win1_0.index t (0 : Fin 4) * 1 + 1 * 0 = t.val / 48; omega
    | ⟨1, _⟩ => show win1_0.index t (1 : Fin 4) * 1 + 1 * 0 = t.val / 4 % 12; omega
    | ⟨2, _⟩ => show win1_0.index t (2 : Fin 4) * 2048 + 1 * n.val = 2048 * (t.val % 4) + n.val; omega
    | ⟨3, _⟩ => show win1_0.index t (3 : Fin 4) * 64 + 1 * d.val = d.val; omega
  · intro d e
    show V c main_v1 (((cfg1.win 1).blk t).view.emb (ix4 (0 : Fin 1) (0 : Fin 1) d e)) = V c main_v1 _
    refine congrArg (V c main_v1) (funext fun a => Fin.ext ?_)
    match a with
    | ⟨0, _⟩ => show win1_1.index t (0 : Fin 4) * 1 + 1 * 0 = t.val / 48; omega
    | ⟨1, _⟩ => show win1_1.index t (1 : Fin 4) * 1 + 1 * 0 = t.val / 4 % 12; omega
    | ⟨2, _⟩ => show win1_1.index t (2 : Fin 4) * 64 + 1 * d.val = d.val; omega
    | ⟨3, _⟩ => show win1_1.index t (3 : Fin 4) * 64 + 1 * e.val = e.val; omega

/-- An index of the output array is in point t's block iff each coordinate is in the block's range on its axis. -/
theorem mem_blk (t : Fin cfg1.N) (i : S4x12x4096x128.Idx) :
    i ∈ ((cfg1.win 2).blk t).view.set ↔ ∀ a : Fin 4, win1_2.index t a * S1x1x1024x128.size a ≤ (i a).val
      ∧ (i a).val < win1_2.index t a * S1x1x1024x128.size a + S1x1x1024x128.size a := by
  show i ∈ ((View.whole main_v2).slice (win1_2.rect t)).set ↔ _
  rw [View.set_slice_whole, Rect.mem_set_unit]
  exact Iff.rfl

/-- The blocks tile the array: index (b, h, R, c) is in the block of point (12 b + h) * 4 + R / 1024. -/
theorem covered (i : S4x12x4096x128.Idx) :
    ∃ t : Fin cfg1.N, (cfg1.win 2).flush t = true ∧ i ∈ ((cfg1.win 2).blk t).view.set := by
  have hN : cfg1.N = 192 := N_1
  have h0 : (i 0).val < 4 := (i 0).isLt
  have h1 : (i 1).val < 12 := (i 1).isLt
  have h2 : (i 2).val < 4096 := (i 2).isLt
  have h3 : (i 3).val < 128 := (i 3).isLt
  obtain ⟨t, ht⟩ : ∃ t : Fin cfg1.N, t.val = ((i 0).val * 12 + (i 1).val) * 4 + (i 2).val / 1024 :=
    ⟨⟨((i 0).val * 12 + (i 1).val) * 4 + (i 2).val / 1024, by omega⟩, rfl⟩
  obtain ⟨e0, e1, e2, e3, e4, e5, e6, e7, e8, e9, e10, e11⟩ := idx_facts t
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 1 ≤ (i 1).val ∧ (i 1).val < win1_2.index t (1 : Fin 4) * 1 + 1; omega
  | ⟨2, _⟩ => show win1_2.index t (2 : Fin 4) * 1024 ≤ (i 2).val ∧ (i 2).val < win1_2.index t (2 : Fin 4) * 1024 + 1024; omega
  | ⟨3, _⟩ => show win1_2.index t (3 : Fin 4) * 128 ≤ (i 3).val ∧ (i 3).val < win1_2.index t (3 : Fin 4) * 128 + 128; omega

/-- THE ARRAY after the region: the packed attention output of the query array and the K^T V array. -/
theorem final1 (c : Dev nD) :
    (dat1 (F := Ideal) V c).arrAt 2 cfg1.N = Cert.CosAttn.outPacked (V c main_arg0) (V c main_v1) :=
  (dat1 (F := Ideal) V c).arrAt_eq_of_cover 2 (G V c) (fun t _ => flushed_eq V c t) (fun i => covered i)

end Cert.CosAttn.Arr1

end
-- ==== Proof.Value.lean ====
/-
  The idealized kernel's result is the attention output of its arguments.
  Reading the fold of boundary contents at the result buffer: the final reshape unpacks the second region's packed
  array; that array is the packed output of the queries and of the first region's K^T V array; that array is the
  K^T V of the keys, the values and the mask row the first host operation laid out. Two positions per 128-wide row
  unpack to the [4, 12, 8192, 64] result, and the two-tile accumulation is the whole sum over the 8192 positions.
-/
import proofs.«145427_j10582799417399_2_alg».proof.Proof.Frame
import proofs.«145427_j10582799417399_2_alg».proof.Proof.SpecK
import proofs.«145427_j10582799417399_2_alg».proof.Proof.HostLayout
import proofs.«145427_j10582799417399_2_alg».proof.Proof.Arr0
import proofs.«145427_j10582799417399_2_alg».proof.Proof.Arr1
import Idealize.ShloMosaic.Lib.StableHlo.Run

set_option maxRecDepth 16384

noncomputable section

namespace Cert.CosAttn.Val

open Cert.KernelIdeal Cert.KernelIdeal.Gen Cert.KernelIdeal.Fr
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The first host operation writes only the mask row: the keys and the values reach the first region as launched. -/
theorem E1_main_arg1 (c : Dev nD) : E1 m ρ c main_arg1 = m ((c : Thread nD τ).loc main_arg1) :=
  StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem E1_main_arg2 (c : Dev nD) : E1 m ρ c main_arg2 = m ((c : Thread nD τ).loc main_arg2) :=
  StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
/-- The mask row the first region reads is the mask laid out along a unit axis. -/
theorem E1_main_v0 (c : Dev nD) : E1 m ρ c main_v0 = broadcastInDim S4x1x8192 ![0, 2] Facts₀.bcast_S4x8192_S4x1x8192_0_2 (m ((c : Thread nD τ).loc main_arg3)) := by
  show StableHlo.after hostOps0 (W0 m ρ c) (Proc.devRef .tc main_v0) = _
  after_results <;> rfl
/-- The queries reach the second region as launched. -/
theorem E2_main_arg0 (c : Dev nD) : E2 m ρ c main_arg0 = m ((c : Thread nD τ).loc main_arg0) :=
  (W2_of_ne m ρ c main_arg0 (by decide)).trans (StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
/-- The K^T V array the second region reads is what the first region's write-backs leave. -/
theorem E2_main_v1 (c : Dev nD) : E2 m ρ c main_v1 = (dat0 (E1 m ρ) c).arrAt 3 cfg0.N := W2_arr m ρ c 3
/-- The packed array is what the second region's write-backs leave. -/
theorem W3_main_v2 (c : Dev nD) : W3 m ρ c (Proc.devRef .tc main_v2) = (dat1 (E2 m ρ) c).arrAt 2 cfg1.N := W3_arr m ρ c 2
/-- The result buffer is the packed array reshaped. -/
theorem W4_main_v3 (c : Dev nD) : W4 m ρ c (Proc.devRef .tc main_v3) = shapeCast S4x12x8192x64 (W3 m ρ c (Proc.devRef .tc main_v2)) Facts₀.shapeCasts_S4x12x4096x128_S4x12x8192x64 := by
  show StableHlo.after hostOps2 (W3 m ρ c) (Proc.devRef .tc main_v3) = _
  after_results <;> rfl

/-- The mask laid out along a unit axis, read back as a [4, 8192] mask, is the mask. -/
theorem mask2_bcast (hb : S4x8192.BroadcastsInDim S4x1x8192 (![0, 2] : Fin 2 → Fin S4x1x8192.rank)) (M : Cert.CosAttn.Mask) :
    Cert.CosAttn.mask2 (broadcastInDim S4x1x8192 ![0, 2] hb M) = M := by
  funext j
  obtain ⟨b, n, rfl⟩ : ∃ (b : Fin 4) (n : Fin 8192), j = ix2 b n := ⟨j 0, j 1, eq_ix2 j⟩
  exact Cert.CosAttn.Host.mask3_at_of hb M b (0 : Fin 1) n

/-- THE RESULT: the result buffer's final contents are the attention output of the launch contents of the four arguments. -/
theorem result_eq (c : Dev nD) :
    W4 m ρ c (Proc.devRef .tc main_v3)
      = Cert.CosAttn.outArr (m ((c : Thread nD τ).loc main_arg0)) (m ((c : Thread nD τ).loc main_arg1)) (m ((c : Thread nD τ).loc main_arg2)) (m ((c : Thread nD τ).loc main_arg3)) := by
  rw [W4_main_v3, W3_main_v2, Cert.CosAttn.Arr1.final1 (E2 m ρ) c, E2_main_arg0, E2_main_v1, Cert.CosAttn.Arr0.final0 (E1 m ρ) c, E1_main_arg1, E1_main_arg2, E1_main_v0, mask2_bcast]
  funext i
  obtain ⟨b, h, n, e, rfl⟩ : ∃ (b : Fin 4) (h : Fin 12) (n : Fin 8192) (e : Fin 64), i = ix4 b h n e := ⟨i 0, i 1, i 2, i 3, eq_ix4 i⟩
  rw [Cert.CosAttn.Host.unmerge_at_of]
  exact Cert.CosAttn.outPacked_unpack _ _ _ _ b h n e

/-- The idealized kernel's run with its result named: the attention output of the arguments, which end as launched. -/
theorem run : θ_run defs (onTc (τ := τ) (main (F := Ideal))) ⟨m, fun _ => 0, ρ⟩ (fun r => ∀ c : Dev nD,
      r.2.mem ((c.tc : Thread nD τ).loc main_v3) = Cert.CosAttn.outArr (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_read (F := Ideal) m ρ)

end Cert.CosAttn.Val

end
-- ==== Proof.RefNorm.lean ====
/-
  The reference's norm stage read at an index: the clipped Euclidean row norm of the specification.
-/
import proofs.«145427_j10582799417399_2_alg».proof.Proof.Spec
import proofs.«145427_j10582799417399_2_alg».proof.Proof.Gen.ReferenceIdeal.Read

noncomputable section

open scoped BigOperators

namespace Cert.CosAttn.Ref

open Idealize.ShloMosaic Idealize.ShloMosaic.ValueIdx Cert.ReferenceIdeal Cert.ReferenceIdeal.Read

/-- The second call of the outlined norm is the same function as the first. -/
theorem v10_eq_v3 (X : (⟨S4x12x8192x64, .f32⟩ : BufTy).Contents (Elt Ideal)) :
    val_main_v10 (F := Ideal) X = val_main_v3 (F := Ideal) X := rfl

/-- The clipped norm of row (b, h, n), read at the row's single column. -/
theorem v3_at (X : (⟨S4x12x8192x64, .f32⟩ : BufTy).Contents (Elt Ideal)) (b : Fin 4) (h : Fin 12) (n : Fin 8192) (z : Fin 1) :
    val_main_v3 (F := Ideal) X (ix4 b h n z) = rowNorm X b h n := by
  rw [val_main_v3_apply, val_main_v1_apply, val_main_call0_v2_apply, val_main_call0_v1_apply, val_main_v2_apply,
    val_main_cst_apply, val_main_call0_cst_apply]
  have hi : ∀ k : Fin 64, idx_main_call0_v1 (idx_main_call0_v2 (ix4 b h n z)) k = ix4 b h n k := fun k =>
    funext fun a => Fin.ext (by match a with | ⟨0, _⟩ => rfl | ⟨1, _⟩ => rfl | ⟨2, _⟩ => rfl | ⟨3, _⟩ => rfl)
  simp only [hi, val_main_call0_v0_apply, Ideal.ofBits_def, Ideal.ofBits_zero_f32, zero_add, Ideal.mulf_def,
    Ideal.hostUnary_sqrt_def, Ideal.maximumf_def]
  rfl

end Cert.CosAttn.Ref

end
-- ==== Proof.RefSpec.lean ====
/-
  The reference program is the specification: each stage of the reference, read at an index given by its
  coordinates, is the specification's function of the same name, and so its result is the specification's output.
-/
import proofs.«145427_j10582799417399_2_alg».proof.Proof.RefNorm

noncomputable section

open scoped BigOperators

namespace Cert.CosAttn.Ref

open Idealize.ShloMosaic Idealize.ShloMosaic.ValueIdx Cert.ReferenceIdeal Cert.ReferenceIdeal.Read

/-- The mask entry that row n of batch b is multiplied by, reached through the two broadcasts. -/
theorem mask13_at (M : (⟨S4x8192, .f32⟩ : BufTy).Contents (Elt Ideal)) (b : Fin 4) (h : Fin 12) (n : Fin 8192) (d : Fin 64) :
    val_main_v13 (F := Ideal) M (ix4 b h n d) = M (ix2 b n) := by
  rw [val_main_v13_apply, val_main_v0_apply]
  exact congrArg M (funext fun a => Fin.ext (by match a with | ⟨0, _⟩ => rfl | ⟨1, _⟩ => rfl))

/-- The same mask entry at the second broadcast of the mask. -/
theorem mask17_at (M : (⟨S4x8192, .f32⟩ : BufTy).Contents (Elt Ideal)) (b : Fin 4) (h : Fin 12) (n : Fin 8192) (d : Fin 64) :
    val_main_v17 (F := Ideal) M (ix4 b h n d) = M (ix2 b n) := by
  rw [val_main_v17_apply, val_main_v0_apply]
  exact congrArg M (funext fun a => Fin.ext (by match a with | ⟨0, _⟩ => rfl | ⟨1, _⟩ => rfl))

/-- The row norm broadcast along the row: every column of row (b, h, n) reads the row's clipped norm. -/
theorem v4_at (X : (⟨S4x12x8192x64, .f32⟩ : BufTy).Contents (Elt Ideal)) (b : Fin 4) (h : Fin 12) (n : Fin 8192) (d : Fin 64) :
    val_main_v4 (F := Ideal) X (ix4 b h n d) = rowNorm X b h n := by
  rw [val_main_v4_apply]
  have hi : idx_main_v4 (ix4 b h n d) = ix4 b h n (0 : Fin 1) :=
    funext fun a => Fin.ext (by match a with | ⟨0, _⟩ => rfl | ⟨1, _⟩ => rfl | ⟨2, _⟩ => rfl | ⟨3, _⟩ => rfl)
  rw [hi, v3_at]

/-- The same for the second call of the norm (on the keys). -/
theorem v11_at (X : (⟨S4x12x8192x64, .f32⟩ : BufTy).Contents (Elt Ideal)) (b : Fin 4) (h : Fin 12) (n : Fin 8192) (d : Fin 64) :
    val_main_v11 (F := Ideal) X (ix4 b h n d) = rowNorm X b h n := by
  rw [val_main_v11_apply, v10_eq_v3]
  have hi : idx_main_v11 (ix4 b h n d) = ix4 b h n (0 : Fin 1) :=
    funext fun a => Fin.ext (by match a with | ⟨0, _⟩ => rfl | ⟨1, _⟩ => rfl | ⟨2, _⟩ => rfl | ⟨3, _⟩ => rfl)
  rw [hi, v3_at]

/-- The normalised, scaled query entry. -/
theorem v7_at (Q : (⟨S4x12x8192x64, .f32⟩ : BufTy).Contents (Elt Ideal)) (b : Fin 4) (h : Fin 12) (n : Fin 8192) (d : Fin 64) :
    val_main_v7 (F := Ideal) Q (ix4 b h n d) = qf Q b h n d := by
  rw [val_main_v7_apply, val_main_v5_apply, v4_at, val_main_v6_apply, val_main_cst_0_apply]
  rfl

/-- The normalised, masked, scaled key entry. -/
theorem v16_at (K : (⟨S4x12x8192x64, .f32⟩ : BufTy).Contents (Elt Ideal)) (M : (⟨S4x8192, .f32⟩ : BufTy).Contents (Elt Ideal))
    (b : Fin 4) (h : Fin 12) (n : Fin 8192) (d : Fin 64) :
    val_main_v16 (F := Ideal) K M (ix4 b h n d) = kf K M b h n d := by
  rw [val_main_v16_apply, val_main_v14_apply, val_main_v12_apply, v11_at, mask13_at, val_main_v15_apply,
    val_main_cst_2_apply]
  rfl

/-- The masked value entry. -/
theorem v18_at (V : (⟨S4x12x8192x64, .f32⟩ : BufTy).Contents (Elt Ideal)) (M : (⟨S4x8192, .f32⟩ : BufTy).Contents (Elt Ideal))
    (b : Fin 4) (h : Fin 12) (n : Fin 8192) (e : Fin 64) :
    val_main_v18 (F := Ideal) V M (ix4 b h n e) = vm V M b h n e := by
  rw [val_main_v18_apply, mask17_at]
  rfl

/-- The first contraction, over the 8192 positions: K^T V. -/
theorem v19_at (K V : (⟨S4x12x8192x64, .f32⟩ : BufTy).Contents (Elt Ideal)) (M : (⟨S4x8192, .f32⟩ : BufTy).Contents (Elt Ideal))
    (b : Fin 4) (h : Fin 12) (d e : Fin 64) :
    val_main_v19 (F := Ideal) K V M (ix4 b h d e) = ktv K V M b h d e := by
  rw [val_main_v19_apply]
  unfold ktv
  refine Finset.sum_congr rfl fun k _ => ?_
  have hl : lidx_main_v19 (ix4 b h d e) k = ix4 b h k d :=
    funext fun a => Fin.ext (by match a with | ⟨0, _⟩ => rfl | ⟨1, _⟩ => rfl | ⟨2, _⟩ => rfl | ⟨3, _⟩ => rfl)
  have hr : ridx_main_v19 (ix4 b h d e) k = ix4 b h k e :=
    funext fun a => Fin.ext (by match a with | ⟨0, _⟩ => rfl | ⟨1, _⟩ => rfl | ⟨2, _⟩ => rfl | ⟨3, _⟩ => rfl)
  rw [hl, hr, v16_at, v18_at]

/-- The second contraction, over the 64 columns: the attention output. -/
theorem v20_at (Q K V : (⟨S4x12x8192x64, .f32⟩ : BufTy).Contents (Elt Ideal)) (M : (⟨S4x8192, .f32⟩ : BufTy).Contents (Elt Ideal))
    (b : Fin 4) (h : Fin 12) (n : Fin 8192) (e : Fin 64) :
    val_main_v20 (F := Ideal) Q K V M (ix4 b h n e) = out Q K V M b h n e := by
  rw [val_main_v20_apply]
  unfold out
  refine Finset.sum_congr rfl fun k _ => ?_
  have hl : lidx_main_v20 (ix4 b h n e) k = ix4 b h n k :=
    funext fun a => Fin.ext (by match a with | ⟨0, _⟩ => rfl | ⟨1, _⟩ => rfl | ⟨2, _⟩ => rfl | ⟨3, _⟩ => rfl)
  have hr : ridx_main_v20 (ix4 b h n e) k = ix4 b h k e :=
    funext fun a => Fin.ext (by match a with | ⟨0, _⟩ => rfl | ⟨1, _⟩ => rfl | ⟨2, _⟩ => rfl | ⟨3, _⟩ => rfl)
  rw [hl, hr, v7_at, v19_at]

/-- The reference computes the specification's output array. -/
theorem ref_eq (x0 x1 x2 : (⟨Cert.ReferenceIdeal.S4x12x8192x64, .f32⟩ : BufTy).Contents (Elt Ideal)) (x3 : (⟨Cert.ReferenceIdeal.S4x8192, .f32⟩ : BufTy).Contents (Elt Ideal)) :
    Cert.ReferenceIdeal.Read.val_main_v20 (F := Ideal) x0 x1 x2 x3 = Cert.CosAttn.outArr x0 x1 x2 x3 := by
  funext i
  obtain ⟨b, h, n, e, rfl⟩ : ∃ (b : Fin 4) (h : Fin 12) (n : Fin 8192) (e : Fin 64), i = ix4 b h n e :=
    ⟨i 0, i 1, i 2, i 3, eq_ix4 i⟩
  exact v20_at x0 x1 x2 x3 b h n e

end Cert.CosAttn.Ref

end
-- ==== Proof.lean ====
/-
  Cosine-normalised linear attention as two kernels against its plain jnp statement.

  The claim: from memories agreeing on Q, K, V [4, 12, 8192, 64] and the mask [4, 8192], the idealized kernel
  program and the idealized reference both run to the end, leave the arguments unchanged, and end with the same
  result over the extended reals.

  Both compute, for every (b, h): KtV[d, e] = sum over the 8192 positions n of Kf[n, d] * Vm[n, e], where
  Kf = K / max(|K row|, eps) * mask * scale and Vm = V * mask, and then out[n, e] = sum over d of Qf[n, d] * KtV[d, e]
  with Qf = Q / max(|Q row|, eps) * scale. The literals eps and scale are the same f32 words on both sides.
  The kernel program differs from the reference only in arrangement: the mask is laid out as a row per batch
  entry; K^T V is accumulated in a 64 x 64 scratch over two tiles of 4096 positions (zero, plus the first tile's
  product, plus the second's) — a regrouping of one finite sum, which holds on the extended reals without any
  finiteness; the matrix products take operands rounded to bf16, which is the identity over the extended reals;
  and the output is written two positions per 128-wide row and unpacked by a row-major reshape.

  The three frames: each kernel region's body is run symbolically per branch (the first kernel's accumulator is
  carried from an even grid point to the odd one after it by the region's invariant), the regions and the two host
  operations are chained as segments, and every argument buffer is read back through the chain to its launch
  contents. The idealization rewrote nothing, so the preservation conjunct is trivial. The precondition is not
  used: no step of the argument needs the inputs finite.
-/
import proofs.«145427_j10582799417399_2_alg».proof.Defs
import proofs.«145427_j10582799417399_2_alg».proof.Proof.Gen.Kernel
import proofs.«145427_j10582799417399_2_alg».proof.Proof.Gen.KernelIdeal
import proofs.«145427_j10582799417399_2_alg».proof.Proof.Gen.ReferenceIdeal
import proofs.«145427_j10582799417399_2_alg».proof.Proof.Gen.ReferenceIdeal.Read
import proofs.«145427_j10582799417399_2_alg».proof.Proof.Gen.Pre_finite_inputs
import proofs.«145427_j10582799417399_2_alg».proof.Proof.BFrame
import proofs.«145427_j10582799417399_2_alg».proof.Proof.Value
import proofs.«145427_j10582799417399_2_alg».proof.Proof.RefSpec

noncomputable section

namespace Cert.Proof

open Idealize.ShloMosaic Idealize.ShloMosaic.TcCoe Idealize.SL.Sem

/-- The word-level kernel program runs to the end and leaves its arguments unchanged. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the attention output of the (agreeing) arguments. -/
theorem algebraic : Cert.algebraic_KernelIdeal_ReferenceIdeal := by
  intro m ρ m' ρ' _ hagree
  refine ⟨_, Cert.CosAttn.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.CosAttn.Ref.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
